-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S43x1024 : Shape := ⟨2, ![43, 1024]⟩
abbrev S32768 : Shape := ⟨1, ![32768]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S43x1024 : S_.BroadcastsInDim S43x1024 (![] : Fin 0 → Fin S43x1024.rank)
  reducesTo_S43x1024_S_d0_1 : S43x1024.ReducesTo [0, 1] S_

variable [Facts]

def fn {F : FTy → Type} [FloatOps F] (main_arg0 : FVec F S32768x1024 .f32) (main_arg1 : FVec F S43x1024 .f32) (main_arg2 : IVec S32768 32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S43x1024 .f32 := Host.absf main_arg1
  let main_cst_0 : FVec F S_ .f32 := constant S_ .f32 0x7F800000#32
  let main_v5 : FVec F S43x1024 .f32 := broadcastInDim S43x1024 ![] bcast_S_S43x1024 main_cst_0
  let main_v6 : IVec S43x1024 1 := cmpf .olt main_v4 main_v5
  let main_c_1 : IVec S_ 1 := constantI S_ 1 1#1
  let main_v7 : IVec S_ 1 := (fun x v => Host.reduce IntOp.andi x v reducesTo_S43x1024_S_d0_1 h_S_) main_v6 main_c_1
  let main_v8 : IVec S_ 1 := andi main_v3 main_v7
  main_v8
-- ==== Kernel.lean ====
abbrev S32768x1024 : Shape := ⟨2, ![32768, 1024]⟩
abbrev S43x1024 : Shape := ⟨2, ![43, 1024]⟩
abbrev S32768 : Shape := ⟨1, ![32768]⟩
abbrev S_ : Shape := ⟨0, ![]⟩
abbrev S128x1024 : Shape := ⟨2, ![128, 1024]⟩
abbrev S32768x1 : Shape := ⟨2, ![32768, 1]⟩
abbrev S2x1x1 : Shape := ⟨3, ![2, 1, 1]⟩
abbrev S2048x1024 : Shape := ⟨2, ![2048, 1024]⟩
abbrev S2048x1 : Shape := ⟨2, ![2048, 1]⟩
abbrev S1x1x1 : Shape := ⟨3, ![1, 1, 1]⟩
abbrev S1x1 : Shape := ⟨2, ![1, 1]⟩
abbrev S1x128 : Shape := ⟨2, ![1, 128]⟩
abbrev S128 : Shape := ⟨1, ![128]⟩
abbrev S128x1 : Shape := ⟨2, ![128, 1]⟩
abbrev S2048 : Shape := ⟨1, ![2048]⟩
abbrev S1024x128 : Shape := ⟨2, ![1024, 128]⟩
abbrev S2048x128 : Shape := ⟨2, ![2048, 128]⟩
abbrev S1 : Shape := ⟨1, ![1]⟩

abbrev nBuf : Space → Nat
  | .hbm => 12
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S43x1024, .f32⟩
  | .hbm, ⟨2, _⟩ => ⟨S32768, .i32⟩
  | .hbm, ⟨3, _⟩ => ⟨S_, .i32⟩
  | .hbm, ⟨4, _⟩ => ⟨S_, .f32⟩
  | .hbm, ⟨5, _⟩ => ⟨S128x1024, .f32⟩
  | .hbm, ⟨6, _⟩ => ⟨S32768x1, .i32⟩
  | .hbm, ⟨7, _⟩ => ⟨S2x1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S2048x1024, .f32⟩
  | .local _ .vmem, ⟨1, _⟩ => ⟨S2048x1024, .f32⟩
  | .local _ .vmem, ⟨2, _⟩ => ⟨S128x1024, .f32⟩
  | .local _ .vmem, ⟨3, _⟩ => ⟨S2048x1, .i32⟩
  | .local _ .vmem, ⟨4, _⟩ => ⟨S2048x1, .i32⟩
  | .local _ .vmem, ⟨5, _⟩ => ⟨S1x1x1, .f32⟩
  | .local _ .vmem, ⟨6, _⟩ => ⟨S1x1x1, .f32⟩
  | .local _ .vmem, ⟨7, _⟩ => ⟨S1x1, .f32⟩
  | .local _ .vmem, ⟨8, _⟩ => ⟨S1x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_20 : BitVec 32 := 0#32
  let v46 : BitVec 1 := Scalar.cmpi .ne v45 c0_i32_20
  v46

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  pads_S43x1024_S128x1024_0850_000 : S43x1024.Pads (![0, 0] : Fin 2 → Nat) ![85, 0] ![0, 0] S128x1024
  h_S_ : 0 < S_.numel
  shapeCasts_S32768_S32768x1 : S32768.ShapeCasts S32768x1
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S128x1024_S128 : S128x1024.Reduces [1] S128
  shapeCasts_S128_S128x1 : S128.ShapeCasts S128x1
  transposes_S128x1_p1_0_S1x128 : S128x1.Transposes [1, 0] S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2048x1024_S2048x1024_0_0 : ∀ a, (![0, 0] : Fin 2 → Nat) a + S2048x1024.size a ≤ S2048x1024.size a
  h_S2048x1024 : 0 < S2048x1024.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  reduces_S2048x1024_S2048 : S2048x1024.Reduces [1] S2048
  shapeCasts_S2048_S2048x1 : S2048.ShapeCasts S2048x1
  bitsLt_bf16_f32 : FTy.bits .bf16 < FTy.bits .f32
  transposes_S128x1024_p1_0_S1024x128 : S128x1024.Transposes [1, 0] S1024x128
  broadcasts_S2048x1_S2048x128 : S2048x1.Broadcasts S2048x128
  broadcasts_S1x128_S2048x128 : S1x128.Broadcasts S2048x128
  iota_S2048x128_d1_w32 : S2048x128.Iotas .tc 32 [1]
  reduces_S2048x128_S2048 : S2048x128.Reduces [1] S2048
  reduces_S2048x1_S1 : S2048x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S32768x1.size a
  hwx0_2 : ∀ i : grid0.Coords, EltTy.bits .i32 = 32 ∨ (Rect.block (s := S32768x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32768x1024 : Shape := ⟨2, ![32768, 1024]⟩
abbrev S43x1024 : Shape := ⟨2, ![43, 1024]⟩
abbrev S32768 : Shape := ⟨1, ![32768]⟩
abbrev S_ : Shape := ⟨0, ![]⟩
abbrev S32768x1 : Shape := ⟨2, ![32768, 1]⟩
abbrev S43 : Shape := ⟨1, ![43]⟩
abbrev S1x43 : Shape := ⟨2, ![1, 43]⟩
abbrev S32768x43 : Shape := ⟨2, ![32768, 43]⟩
abbrev S1024x43 : Shape := ⟨2, ![1024, 43]⟩

abbrev nBuf : Space → Nat
  | .hbm => 41
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S43x1024, .f32⟩
  | .hbm, ⟨2, _⟩ => ⟨S32768, .i32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S43x1024, .f32⟩
  | .hbm, ⟨8, _⟩ => ⟨S_, .f32⟩
  | .hbm, ⟨9, _⟩ => ⟨S43, .f32⟩
  | .hbm, ⟨10, _⟩ => ⟨S1x43, .f32⟩
  | .hbm, ⟨11, _⟩ => ⟨S32768x43, .f32⟩
  | .hbm, ⟨12, _⟩ => ⟨S32768x43, .f32⟩
  | .hbm, ⟨13, _⟩ => ⟨S32768x43, .f32⟩
  | .hbm, ⟨14, _⟩ => ⟨S1024x43, .f32⟩
  | .hbm, ⟨15, _⟩ => ⟨S32768x43, .f32⟩
  | .hbm, ⟨16, _⟩ => ⟨S_, .f32⟩
  | .hbm, ⟨17, _⟩ => ⟨S32768x43, .f32⟩
  | .hbm, ⟨18, _⟩ => ⟨S32768x43, .f32⟩
  | .hbm, ⟨19, _⟩ => ⟨S32768x43, .f32⟩
  | .hbm, ⟨20, _⟩ => ⟨S32768x1, .i32⟩
  | .hbm, ⟨21, _⟩ => ⟨S43, .i32⟩
  | .hbm, ⟨22, _⟩ => ⟨S1x43, .i32⟩
  | .hbm, ⟨23, _⟩ => ⟨S32768x43, .i32⟩
  | .hbm, ⟨24, _⟩ => ⟨S32768x43, .i32⟩
  | .hbm, ⟨25, _⟩ => ⟨S32768x43, .i1⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S32768x43, .f32⟩
  | .hbm, ⟨30, _⟩ => ⟨S32768x43, .f32⟩
  | .hbm, ⟨31, _⟩ => ⟨S_, .f32⟩
  | .hbm, ⟨32, _⟩ => ⟨S32768x43, .f32⟩
  | .hbm, ⟨33, _⟩ => ⟨S32768x43, .f32⟩
  | .hbm, ⟨34, _⟩ => ⟨S_, .f32⟩
  | .hbm, ⟨35, _⟩ => ⟨S32768x43, .f32⟩
  | .hbm, ⟨36, _⟩ => ⟨S32768x43, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v20 : Ref sig .tc := ⟨.hbm, 33, rfl⟩
abbrev main_cst_4 : Ref sig .tc := ⟨.hbm, 34, rfl⟩
abbrev main_call1_v0 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩

abbrev nD : Nat := 1
abbrev τ : Topo := Topo.v7x

variable {F : FTy → Type} [FloatOps F]

class Facts₀ : Prop where
  reducesTo_S32768x1024_S32768_d1 : S32768x1024.ReducesTo [1] S32768
  h_S_ : 0 < S_.numel
  bcast_S32768_S32768x1_0 : S32768.BroadcastsInDim S32768x1 (![0] : Fin 1 → Fin S32768x1.rank)
  reducesTo_S43x1024_S43_d1 : S43x1024.ReducesTo [1] S43
  bcast_S43_S1x43_1 : S43.BroadcastsInDim S1x43 (![1] : Fin 1 → Fin S1x43.rank)
  bcast_S32768x1_S32768x43_0_1 : S32768x1.BroadcastsInDim S32768x43 (![0, 1] : Fin 2 → Fin S32768x43.rank)
  bcast_S1x43_S32768x43_0_1 : S1x43.BroadcastsInDim S32768x43 (![0, 1] : Fin 2 → Fin S32768x43.rank)
  transposes_S43x1024_S1024x43_1_0 : S43x1024.Transposes [1, 0] S1024x43
  bcast_S_S32768x43 : S_.BroadcastsInDim S32768x43 (![] : Fin 0 → Fin S32768x43.rank)
  reducesTo_S32768x43_S_d0_1 : S32768x43.ReducesTo [0, 1] S_
  dot_S32768x1024_S1024x43_S32768x43_1_0_0_1_n_n_wf : DotDims.WF S32768x1024 S1024x43 S32768x43 [1] [0] [0] [1] [] []

variable [Facts₀]

def dot_S32768x1024_S1024x43_S32768x43_1_0_0_1_n_n : DotDims S32768x1024 S1024x43 S32768x43 where
  lhsContracting := [1]
  rhsContracting := [0]
  lhsNonContracting := [0]
  rhsNonContracting := [1]
  lhsBatch := []
  rhsBatch := []
  wf := dot_S32768x1024_S1024x43_S32768x43_1_0_0_1_n_n_wf

class Facts : Prop extends Facts₀ where

variable [Facts]
-- ==== Proof.LibBlockSum.lean ====
/-
  A sum over a long one-axis index set, cut into equal blocks.

  An array of `N = a * b` entries laid out in `a` consecutive blocks of `b` entries has entry `i * b + j` at offset `j` of
  block `i`; so a sum over all `N` entries is the sum over the blocks of the sum over the offsets. Cutting twice
  (`N = a * b * c`: blocks of rows of lanes) gives a triple sum with entry `(t * b + r) * c + l` at lane `l` of row `r` of
  block `t`. The sums are in any commutative monoid: only the order and grouping of the terms change.
-/
import Mathlib.Algebra.BigOperators.Fin
import Mathlib.Logic.Equiv.Fin.Basic
import Idealize.ShloMosaic.Lib.ValueIdx

noncomputable section

open scoped BigOperators

namespace Cert.Lib.BlockSum

open Idealize.ShloMosaic Idealize.ShloMosaic.ValueIdx

/-- Offset `j` of block `i`, of `a` blocks of length `b`, is a position below `a * b`. -/
theorem blockPos_lt {a b N : ℕ} (hN : a * b = N) (i : Fin a) (j : Fin b) : i.val * b + j.val < N := by
  subst hN
  calc i.val * b + j.val < i.val * b + b := by have := j.isLt; omega
    _ = (i.val + 1) * b := by ring
    _ ≤ a * b := Nat.mul_le_mul_right b i.isLt

/-- A sum over `a * b` positions is the sum over the `a` blocks of the sum over the `b` offsets. -/
theorem sum_fin_blocks {A : Type*} [AddCommMonoid A] {a b N : ℕ} (hN : a * b = N) (f : Fin N → A) :
    ∑ k, f k = ∑ i : Fin a, ∑ j : Fin b, f ⟨i.val * b + j.val, blockPos_lt hN i j⟩ := by
  subst hN
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.mul_comm]; omega

/-- A rank-1 index set is its coordinate's range, so a sum over it is the sum over the coordinate. -/
theorem sum_idx1 {A : Type*} [AddCommMonoid A] {n : ℕ} (f : (⟨1, ![n]⟩ : Shape).Idx → A) :
    ∑ i, f i = ∑ k : Fin n, f (ix1 k) := by
  let e : (⟨1, ![n]⟩ : Shape).Idx ≃ Fin n :=
    { toFun := fun i => i 0, invFun := fun k => ix1 k, left_inv := fun i => (eq_ix1 i).symm, right_inv := fun _ => rfl }
  rw [← Equiv.sum_comp e.symm f]
  rfl

/-- Lane `l` of row `r` of block `t`, of `a` blocks of `b` rows of `c` lanes, is a position below `a * b * c`. -/
theorem lanePos_lt {a b c N : ℕ} (hN : a * b * c = N) (t : Fin a) (r : Fin b) (l : Fin c) :
    (t.val * b + r.val) * c + l.val < N :=
  blockPos_lt (a := a * b) hN ⟨t.val * b + r.val, blockPos_lt rfl t r⟩ l

/-- A sum over a one-axis index set of `a * b * c` entries is the triple sum over blocks, rows and lanes. -/
theorem sum_idx1_blocks {A : Type*} [AddCommMonoid A] {a b c N : ℕ} (hN : a * b * c = N)
    (f : (⟨1, ![N]⟩ : Shape).Idx → A) :
    ∑ i, f i = ∑ t : Fin a, ∑ r : Fin b, ∑ l : Fin c, f (ix1 ⟨(t.val * b + r.val) * c + l.val, lanePos_lt hN t r l⟩) := by
  rw [sum_idx1, sum_fin_blocks (a := a * b) (b := c) hN, sum_fin_blocks (a := a) (b := b) (N := a * b) rfl]

end Cert.Lib.BlockSum

end
-- ==== Proof.Spec.lean ====
/-
  The proximity loss as ONE function of its three argument arrays, over the extended reals.

  For a batch of 32768 feature rows `x_i` in dimension 1024, 43 class centres `c_j` and a label per row, the loss is
  the mean, over every pair (row, class other than the row's own), of the squared distance
  `‖x_i‖² + ‖c_j‖² − 2·⟨x_i, c_j⟩` clamped into `[lo, hi]`:

      loss = ( Σ_i Σ_{j ≠ label_i} min hi (max lo (‖x_i‖² + ‖c_j‖² − 2·⟨x_i, c_j⟩)) ) / (32768 · 42).

  A pair is dropped by contributing `0`, so a label that names no class drops nothing. The four float constants are
  kept as the words the two programs print; the same word on both sides is never evaluated.

  Two facts of pure algebra sit here as well, over any commutative additive monoid: a row sum taken over 128 lanes of
  which only the first 43 can be nonzero is the sum over those 43; and the rows, cut into 2 halves of 8 tiles of 2048
  rows, are summed half by half and tile by tile to the sum over all rows.
-/
import Mathlib.Algebra.BigOperators.Fin
import Idealize.ShloMosaic.PureOps.Ideal
import Idealize.ShloMosaic.PureOps.Ideal.Laws
import Idealize.ShloMosaic.Lib.ValueIdx
import proofs.«160003_j14877766713743_2_alg».proof.Proof.LibBlockSum

noncomputable section

open scoped BigOperators

namespace Cert.Proximity

open Idealize.ShloMosaic Idealize.ShloMosaic.ValueIdx

/-- An `n × k` array of extended reals, indexed as the programs index it. -/
abbrev Mat (n k : ℕ) := (⟨2, ![n, k]⟩ : Shape).Idx → EReal

/-- The lower clamp, the f32 nearest to `1e-12`. -/
def lo : EReal := Ideal.ofBits .f32 0x2B8CBCCC#32
/-- The upper clamp, the f32 nearest to `1e12`. -/
def hi : EReal := Ideal.ofBits .f32 0x5368D4A5#32
/-- The factor of the inner product, the f32 `2`. -/
def two : EReal := Ideal.ofBits .f32 0x40000000#32
/-- The number of kept pairs, `32768 · 42`, as an f32. -/
def pairs : EReal := Ideal.ofBits .f32 0x49A80000#32

/-- The squared norm of row `i`. -/
def sqnorm {n : ℕ} (A : Mat n 1024) (i : Fin n) : EReal := ∑ d : Fin 1024, A (ix2 i d) * A (ix2 i d)

/-- The inner product of row `i` of `X` with row `j` of `C`. -/
def inner {n c : ℕ} (X : Mat n 1024) (C : Mat c 1024) (i : Fin n) (j : Fin c) : EReal :=
  ∑ d : Fin 1024, X (ix2 i d) * C (ix2 j d)

/-- The squared distance of row `i` to centre `j` in its expanded form, clamped into `[lo, hi]`. -/
def clampDist {n c : ℕ} (X : Mat n 1024) (C : Mat c 1024) (i : Fin n) (j : Fin c) : EReal :=
  min hi (max lo (sqnorm X i + sqnorm C j - two * inner X C i j))

/-- What the pair (row `i`, class `j`) contributes: nothing when `j` is the row's own class. -/
def kept {n c : ℕ} (X : Mat n 1024) (C : Mat c 1024) (lab : Fin n → BitVec 32) (i : Fin n) (j : Fin c) : EReal :=
  if lab i = BitVec.ofNat 32 j.val then 0 else clampDist X C i j

/-- Row `i`'s contribution: the sum over the classes. -/
def rowKept {n c : ℕ} (X : Mat n 1024) (C : Mat c 1024) (lab : Fin n → BitVec 32) (i : Fin n) : EReal :=
  ∑ j : Fin c, kept X C lab i j

/-- The sum over every row and class. -/
def total {n c : ℕ} (X : Mat n 1024) (C : Mat c 1024) (lab : Fin n → BitVec 32) : EReal :=
  ∑ i : Fin n, rowKept X C lab i

/-- The loss: the total over the number of kept pairs. -/
def loss {n c : ℕ} (X : Mat n 1024) (C : Mat c 1024) (lab : Fin n → BitVec 32) : EReal :=
  Ideal.div (total X C lab) pairs

/-- Tile `t` of the 16 tiles of 2048 rows: the sum of its rows' contributions (and `0` past the last tile, so that
    the tile's number may be any natural). -/
def tileKept {c : ℕ} (X : Mat 32768 1024) (C : Mat c 1024) (lab : Fin 32768 → BitVec 32) (t : ℕ) : EReal :=
  if h : t < 16 then ∑ r : Fin 2048, rowKept X C lab ⟨t * 2048 + r.val, by have := r.isLt; omega⟩ else 0

/-- Lane `j` of the 128 lanes a row is spread over, against centres padded to 128 rows: a lane contributes nothing when
    it is the row's own class or lies past the 43 classes. -/
def keptLane {n : ℕ} (X : Mat n 1024) (CP : Mat 128 1024) (lab : Fin n → BitVec 32) (i : Fin n) (j : Fin 128) : EReal :=
  if BitVec.ofNat 32 j.val = lab i ∨ ¬ j.val < 43 then 0 else clampDist X CP i j

/-! ## Algebra -/

/-- A sum over `p` lanes whose entries vanish from lane `c` on is the sum over the first `c` lanes. -/
theorem sum_lanes_of_zero_tail {A : Type*} [AddCommMonoid A] {c p : ℕ} (hcp : c ≤ p) (g : Fin p → A)
    (hz : ∀ j : Fin p, c ≤ j.val → g j = 0) :
    ∑ j, g j = ∑ j : Fin c, g ⟨j.val, lt_of_lt_of_le j.isLt hcp⟩ := by
  obtain ⟨e, rfl⟩ := Nat.exists_eq_add_of_le hcp
  have tail : ∑ i : Fin e, g (Fin.natAdd c i) = 0 := Finset.sum_eq_zero fun j _ => hz _ (by simp)
  rw [Fin.sum_univ_add, tail, add_zero]
  exact Finset.sum_congr rfl fun j _ => congrArg g (Fin.ext rfl)

/-- A row's 128 lanes add up to its contribution over the 43 classes, when the padded centres' first 43 rows are the
    centres: the lanes past the classes are zero, and lane `j` below 43 is class `j`'s term. -/
theorem sum_keptLane {n : ℕ} (X : Mat n 1024) (C : Mat 43 1024) (CP : Mat 128 1024) (lab : Fin n → BitVec 32)
    (hCP : ∀ (j : Fin 43) (d : Fin 1024), CP (ix2 ⟨j.val, by have := j.isLt; omega⟩ d) = C (ix2 j d)) (i : Fin n) :
    ∑ j : Fin 128, keptLane X CP lab i j = rowKept X C lab i := by
  rw [sum_lanes_of_zero_tail (c := 43) (by norm_num) (keptLane X CP lab i)
    (fun j hj => by unfold keptLane; exact if_pos (Or.inr (by omega)))]
  refine Finset.sum_congr rfl fun j _ => ?_
  have hj := j.isLt
  unfold keptLane kept
  have hc : (BitVec.ofNat 32 j.val = lab i ∨ ¬ j.val < 43) ↔ lab i = BitVec.ofNat 32 j.val :=
    ⟨fun h => h.elim Eq.symm (fun h' => absurd hj h'), fun h => Or.inl h.symm⟩
  refine (if_congr hc rfl ?_)
  unfold clampDist sqnorm inner
  simp only [hCP]

/-- A row's contribution depends only on that row's entries and label. -/
theorem rowKept_congr {n n' c : ℕ} (X : Mat n 1024) (X' : Mat n' 1024) (C : Mat c 1024) (lab : Fin n → BitVec 32)
    (lab' : Fin n' → BitVec 32) (i : Fin n) (i' : Fin n') (hX : ∀ d : Fin 1024, X (ix2 i d) = X' (ix2 i' d))
    (hl : lab i = lab' i') : rowKept X C lab i = rowKept X' C lab' i' := by
  unfold rowKept kept clampDist sqnorm inner
  simp only [hX, hl]

/-- The two halves' sums of their eight tiles add up to the sum over all 32768 rows. -/
theorem sum_halves_tiles {c : ℕ} (X : Mat 32768 1024) (C : Mat c 1024) (lab : Fin 32768 → BitVec 32) :
    ∑ q : Fin 2, (0 + ∑ s ∈ Finset.range 8, tileKept X C lab (8 * q.val + s)) = total X C lab := by
  unfold total
  rw [Cert.Lib.BlockSum.sum_fin_blocks (a := 16) (b := 2048) (by norm_num : 16 * 2048 = 32768),
    Cert.Lib.BlockSum.sum_fin_blocks (a := 2) (b := 8) (N := 16) (by norm_num : 2 * 8 = 16)]
  refine Finset.sum_congr rfl fun q _ => ?_
  rw [zero_add, Finset.sum_range]
  refine Finset.sum_congr rfl fun s _ => ?_
  have hq := q.isLt
  have hs := s.isLt
  have h : 8 * q.val + s.val < 16 := by omega
  unfold tileKept
  rw [dif_pos h]
  refine Finset.sum_congr rfl fun r _ => congrArg _ (Fin.ext ?_)
  show (8 * q.val + s.val) * 2048 + r.val = (q.val * 8 + s.val) * 2048 + r.val
  omega

end Cert.Proximity

end
-- ==== Proof.LibFlags.lean ====
import Idealize.ShloMosaic.PureOps
import Idealize.ShloMosaic.Lib.ValueIdx

/-!
# One-bit flags and the selects they drive

General facts about the one-bit results of integer comparisons and the logic on them, for any width of word where
stated so: a select driven by the equality flag of two words is an if-then-else on their equality; the flags of
`eq` and `slt` as decidable propositions; `or` and `xor`-with-one on flags as disjunction and negation.
-/

namespace Cert.Lib.Flags

open Idealize.ShloMosaic Idealize.ShloMosaic.ValueIdx

/-- The equality flag of two words is one exactly when they are equal. -/
theorem cmpi_eq_eq_one_iff {w : ℕ} (x y : BitVec w) : IntOp.cmpi .eq x y = 1#1 ↔ x = y := by
  show BitVec.ofBool (x == y) = 1#1 ↔ x = y
  by_cases h : x = y
  · simp [h]
  · have : (x == y) = false := by rw [beq_eq_false_iff_ne]; exact h
    simp [this, h]

/-- A flag is one or zero. -/
theorem flag_cases (f : BitVec 1) : f = 1#1 ∨ f = 0#1 := by
  by_cases h : f = 1#1
  · exact Or.inl h
  · exact Or.inr (eq_zero_of_ne_one h)

/-- A select driven by a flag is an if-then-else on the flag being one. -/
theorem select_eq_ite {α : Type} (f : BitVec 1) (u v : α) : Scalar.select f u v = if f = 1#1 then u else v := by
  rcases flag_cases f with h | h
  · rw [h, select_one, if_pos rfl]
  · rw [h, select_zero, if_neg (by decide)]

/-- A select driven by the equality flag of two words is an if-then-else on their equality. -/
theorem select_cmpi_eq {α : Type} {w : ℕ} (x y : BitVec w) (u v : α) :
    Scalar.select (IntOp.cmpi .eq x y) u v = if x = y then u else v := by
  rw [select_eq_ite]
  exact if_congr (cmpi_eq_eq_one_iff x y) rfl rfl

/-- The `or` of two flags is one exactly when one of them is. -/
theorem ori_eq_one_iff (a b : BitVec 1) : IntOp.ori a b = 1#1 ↔ a = 1#1 ∨ b = 1#1 := by
  revert a b; decide

/-- A flag `xor`ed with one is one exactly when the flag is not. -/
theorem xori_one_eq_one_iff (a : BitVec 1) : IntOp.xori a 1#1 = 1#1 ↔ ¬ a = 1#1 := by
  revert a; decide

/-- The signed less-than flag of the words of two naturals below `2^31` is one exactly when the first is smaller. -/
theorem cmpi_slt_ofNat_eq_one_iff {a b : ℕ} (ha : a < 2 ^ 31) (hb : b < 2 ^ 31) :
    IntOp.cmpi .slt (BitVec.ofNat 32 a) (BitVec.ofNat 32 b) = 1#1 ↔ a < b := by
  show BitVec.ofBool ((BitVec.ofNat 32 a).slt (BitVec.ofNat 32 b)) = 1#1 ↔ a < b
  have ea : (BitVec.ofNat 32 a).toInt = (a : ℤ) := by
    have hn : (BitVec.ofNat 32 a).toNat = a := by rw [BitVec.toNat_ofNat]; exact Nat.mod_eq_of_lt (by omega)
    rw [BitVec.toInt_eq_toNat_of_lt (by rw [hn]; omega), hn]
  have eb : (BitVec.ofNat 32 b).toInt = (b : ℤ) := by
    have hn : (BitVec.ofNat 32 b).toNat = b := by rw [BitVec.toNat_ofNat]; exact Nat.mod_eq_of_lt (by omega)
    rw [BitVec.toInt_eq_toNat_of_lt (by rw [hn]; omega), hn]
  rw [BitVec.slt, ea, eb]
  by_cases h : a < b
  · simp [h]
  · simp [h]

end Cert.Lib.Flags
-- ==== Proof.RefValue.lean ====
import proofs.«160003_j14877766713743_2_alg».proof.Proof.Gen.ReferenceIdeal.Read
import proofs.«160003_j14877766713743_2_alg».proof.Proof.Spec
import proofs.«160003_j14877766713743_2_alg».proof.Proof.LibFlags

noncomputable section

open scoped BigOperators

namespace Cert.ReferenceIdeal.RefValue

open Cert.ReferenceIdeal Cert.ReferenceIdeal.Read Idealize.ShloMosaic Idealize.ShloMosaic.ValueIdx Cert.Proximity

/-!
  The reference computes the loss: its last stage, read one operation at a time through the generated read lemmas,
  is, at its one index, the total over every (row, class) pair of the kept clamped distance, divided by the number
  of kept pairs. Entry `(a, b)` of the array the reference sums is the pair's contribution: both squared norms are
  sums down a row from the zero word, the product with the transposed centres is the inner product of the two rows,
  and the mask compares the row's label with the class's number.
-/

/-- The labels as a function of the row. -/
abbrev labels (x2 : (⟨S32768, .i32⟩ : BufTy).Contents (Elt Ideal)) : Fin 32768 → BitVec 32 := fun i => x2 (ix1 i)

/-- Entry `(a, b)` of the array the reference sums is what the pair (row `a`, class `b`) contributes. -/
theorem entry (x0 : (⟨S32768x1024, .f32⟩ : BufTy).Contents (Elt Ideal)) (x1 : (⟨S43x1024, .f32⟩ : BufTy).Contents (Elt Ideal))
    (x2 : (⟨S32768, .i32⟩ : BufTy).Contents (Elt Ideal)) (a : Fin 32768) (b : Fin 43) :
    val_main_v21 (F := Ideal) x0 x1 x2 (ix2 a b) = kept x0 x1 (labels x2) a b := by
  have eLab : idx_main_v14 (idx_main_v17 (ix2 a b)) = ix1 a :=
    funext fun c => Fin.ext (by match c with | ⟨0, _⟩ => rfl)
  have eX : ∀ k : Fin 1024, idx_main_v1 (idx_main_v2 (idx_main_v6 (ix2 a b))) k = ix2 a k := fun k =>
    funext fun c => Fin.ext (by match c with | ⟨0, _⟩ => rfl | ⟨1, _⟩ => rfl)
  have eC : ∀ k : Fin 1024, idx_main_v4 (idx_main_v5 (idx_main_v7 (ix2 a b))) k = ix2 b k := fun k =>
    funext fun c => Fin.ext (by match c with | ⟨0, _⟩ => rfl | ⟨1, _⟩ => rfl)
  have eL : ∀ k : Fin 1024, lidx_main_v10 (ix2 a b) k = ix2 a k := fun k =>
    funext fun c => Fin.ext (by match c with | ⟨0, _⟩ => rfl | ⟨1, _⟩ => rfl)
  have eR : ∀ k : Fin 1024, idx_main_v9 (ridx_main_v10 (ix2 a b) k) = ix2 b k := fun k =>
    funext fun c => Fin.ext (by match c with | ⟨0, _⟩ => rfl | ⟨1, _⟩ => rfl)
  simp only [val_main_v21_apply, val_main_v19_apply, val_main_v17_apply, val_main_v14_apply, val_main_v18_apply,
    val_main_v16_apply, val_main_v15_apply, val_main_call1_v0_apply, val_main_cst_4_apply, val_main_v20_apply,
    val_main_call0_v4_apply, val_main_call0_v3_apply, val_main_cst_3_apply, val_main_call0_v2_apply,
    val_main_call0_v1_apply, val_main_call0_v0_apply, val_main_cst_2_apply, val_main_v13_apply, val_main_v8_apply,
    val_main_v6_apply, val_main_v2_apply, val_main_v1_apply, val_main_cst_apply, val_main_v0_apply, val_main_v7_apply,
    val_main_v5_apply, val_main_v4_apply, val_main_cst_0_apply, val_main_v3_apply, val_main_v12_apply,
    val_main_v11_apply, val_main_cst_1_apply, val_main_v10_apply, val_main_v9_apply,
    Ideal.ofBits_def, Ideal.addf_def, Ideal.subf_def, Ideal.mulf_def, Ideal.maximumf_def, Ideal.minimumf_def,
    eLab, eX, eC, eL, eR, Ideal.ofBits_zero_f32, zero_add]
  rw [Cert.Lib.Flags.select_cmpi_eq]
  rfl

/-- The reference's result is the loss of its three arguments. -/
theorem result_eq (x0 : (⟨S32768x1024, .f32⟩ : BufTy).Contents (Elt Ideal)) (x1 : (⟨S43x1024, .f32⟩ : BufTy).Contents (Elt Ideal))
    (x2 : (⟨S32768, .i32⟩ : BufTy).Contents (Elt Ideal)) :
    val_main_v23 (F := Ideal) x0 x1 x2 = fun _ => loss x0 x1 (labels x2) := by
  funext i
  rw [val_main_v23_apply, val_main_v22_apply, sum_idx2]
  simp only [entry, val_main_cst_5_apply, val_main_cst_6_apply, Ideal.ofBits_def, Ideal.hostDivf_def,
    Ideal.ofBits_zero_f32, zero_add]
  rfl

end Cert.ReferenceIdeal.RefValue

end
-- ==== Proof.KPieces.lean ====
import proofs.«160003_j14877766713743_2_alg».proof.Proof.Gen.KernelIdeal.Frame
import Idealize.ShloMosaic.Lib.Pipeline.Value
import Idealize.ShloMosaic.Lib.Tactic

set_option maxRecDepth 16384

noncomputable section

/-!
  What each of the body's three control cases leaves behind, as pure terms over the body's loads. A half of the batch
  is walked in eight steps. The first step stores the centres' squared-norm row and restarts the accumulator from
  zero; every step adds its tile's total to the accumulator; the last step copies the accumulator into the half's
  output cell. The squared-norm row, once stored, is only read.
-/

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle step of a half (neither its first nor its last tile) leaves in the accumulator what it held plus the
    tile's total: the one store's payload, read over the carried accumulator and the carried squared-norm row. -/
theorem acc_B (c : Dev nD) (i : grid0.Coords) (arg2 : Memref sig .tc .vmem S2048x1024 .f32) (harg2 : arg2.IsWhole) (arg3 : Memref sig .tc .vmem S128x1024 .f32) (harg3 : arg3.IsWhole) (arg4 : Memref sig .tc .vmem S2048x1 .i32) (harg4 : arg4.IsWhole) (arg5 : Memref sig .tc .vmem S1x1x1 .f32) (harg5 : arg5.IsWhole) (arg6 : Memref sig .tc .vmem S1x1 .f32) (harg6 : arg6.IsWhole) (arg7 : Memref sig .tc .vmem S1x128 .f32) (harg7 : arg7.IsWhole) (hc0 : ¬cond0_0 i) (hc1 : ¬cond0_1 i)
    (x0 : Vec F S2048x1024 .f32) (x1 : Vec F S128x1024 .f32) (x2 : Vec F S2048x1 .i32) (xs0 : Vec F S1x1 .f32) (xs1 : Vec F S1x128 .f32) :
    sout0_B_0 c i arg2 harg2 arg3 harg3 arg4 harg4 arg5 harg5 arg6 harg6 arg7 harg7 hc0 hc1 x0 x1 x2 xs0 xs1 = k0_pay1 (k0_pay6 x1 x0 x2 xs1) xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero (S := S1x1) hz2]
  simp only [View.readAt_eq_ld, harg2.read_unread, harg3.read_unread, harg4.read_unread, harg5.read_unread, harg6.read_unread, harg7.read_unread,
    View.ld_unit_zero (S := S1x1) hz2, View.ld_unit_zero (S := S2048x1024) hz2, View.ld_unit_zero (S := S128x1024) hz2,
    View.ld_unit_zero (S := S2048x1) hz2, View.ld_unit_zero (S := S1x128) hz2]

/-- The last step of a half leaves the same in the accumulator, -/
theorem acc_C (c : Dev nD) (i : grid0.Coords) (arg2 : Memref sig .tc .vmem S2048x1024 .f32) (harg2 : arg2.IsWhole) (arg3 : Memref sig .tc .vmem S128x1024 .f32) (harg3 : arg3.IsWhole) (arg4 : Memref sig .tc .vmem S2048x1 .i32) (harg4 : arg4.IsWhole) (arg5 : Memref sig .tc .vmem S1x1x1 .f32) (harg5 : arg5.IsWhole) (arg6 : Memref sig .tc .vmem S1x1 .f32) (harg6 : arg6.IsWhole) (arg7 : Memref sig .tc .vmem S1x128 .f32) (harg7 : arg7.IsWhole) (hc0 : ¬cond0_0 i) (hc1 : cond0_1 i)
    (x0 : Vec F S2048x1024 .f32) (x1 : Vec F S128x1024 .f32) (x2 : Vec F S2048x1 .i32) (xs0 : Vec F S1x1 .f32) (xs1 : Vec F S1x128 .f32) :
    sout0_C_0 c i arg2 harg2 arg3 harg3 arg4 harg4 arg5 harg5 arg6 harg6 arg7 harg7 hc0 hc1 x0 x1 x2 xs0 xs1 = k0_pay1 (k0_pay6 x1 x0 x2 xs1) xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S1x1) hz2]
  simp only [View.readAt_eq_ld, harg2.read_unread, harg3.read_unread, harg4.read_unread, harg5.read_unread, harg6.read_unread, harg7.read_unread,
    View.ld_unit_zero (S := S1x1) hz2, View.ld_unit_zero (S := S2048x1024) hz2, View.ld_unit_zero (S := S128x1024) hz2,
    View.ld_unit_zero (S := S2048x1) hz2, View.ld_unit_zero (S := S1x128) hz2]

/-- and copies that accumulator into the half's output cell. -/
theorem out_C (c : Dev nD) (i : grid0.Coords) (arg2 : Memref sig .tc .vmem S2048x1024 .f32) (harg2 : arg2.IsWhole) (arg3 : Memref sig .tc .vmem S128x1024 .f32) (harg3 : arg3.IsWhole) (arg4 : Memref sig .tc .vmem S2048x1 .i32) (harg4 : arg4.IsWhole) (arg5 : Memref sig .tc .vmem S1x1x1 .f32) (harg5 : arg5.IsWhole) (arg6 : Memref sig .tc .vmem S1x1 .f32) (harg6 : arg6.IsWhole) (arg7 : Memref sig .tc .vmem S1x128 .f32) (harg7 : arg7.IsWhole) (hc0 : ¬cond0_0 i) (hc1 : cond0_1 i)
    (x0 : Vec F S2048x1024 .f32) (x1 : Vec F S128x1024 .f32) (x2 : Vec F S2048x1 .i32) (xs0 : Vec F S1x1 .f32) (xs1 : Vec F S1x128 .f32) :
    out0_C_3 c i arg2 harg2 arg3 harg3 arg4 harg4 arg5 harg5 arg6 harg6 arg7 harg7 hc0 hc1 x0 x1 x2 xs0 xs1 = k0_pay2 (k0_pay1 (k0_pay6 x1 x0 x2 xs1) xs0) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S1x1x1) hz3]
  simp only [View.readAt_eq_ld, harg2.read_unread, harg3.read_unread, harg4.read_unread, harg5.read_unread, harg6.read_unread, harg7.read_unread,
    View.ld_unit_zero (S := S1x1) hz2, View.ld_unit_zero (S := S2048x1024) hz2, View.ld_unit_zero (S := S128x1024) hz2,
    View.ld_unit_zero (S := S2048x1) hz2, View.ld_unit_zero (S := S1x128) hz2, View.readCov_unit_zero (S := S1x1) _ hz2]

/-- The first step of a half stores the centres' squared-norm row, -/
theorem csq_A (c : Dev nD) (i : grid0.Coords) (arg2 : Memref sig .tc .vmem S2048x1024 .f32) (harg2 : arg2.IsWhole) (arg3 : Memref sig .tc .vmem S128x1024 .f32) (harg3 : arg3.IsWhole) (arg4 : Memref sig .tc .vmem S2048x1 .i32) (harg4 : arg4.IsWhole) (arg5 : Memref sig .tc .vmem S1x1x1 .f32) (harg5 : arg5.IsWhole) (arg6 : Memref sig .tc .vmem S1x1 .f32) (harg6 : arg6.IsWhole) (arg7 : Memref sig .tc .vmem S1x128 .f32) (harg7 : arg7.IsWhole) (hc0 : cond0_0 i) (hc1 : ¬cond0_1 i)
    (x0 : Vec F S2048x1024 .f32) (x1 : Vec F S128x1024 .f32) (x2 : Vec F S2048x1 .i32) :
    sout0_A_1 c i arg2 harg2 arg3 harg3 arg4 harg4 arg5 harg5 arg6 harg6 arg7 harg7 hc0 hc1 x0 x1 x2 = k0_pay5 x1 := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_unit_zero (S := S1x128) hz2]
  simp only [View.readAt_eq_ld, harg2.read_unread, harg3.read_unread, harg4.read_unread, harg5.read_unread, harg6.read_unread, harg7.read_unread,
    View.ld_unit_zero (S := S1x1) hz2, View.ld_unit_zero (S := S2048x1024) hz2, View.ld_unit_zero (S := S128x1024) hz2,
    View.ld_unit_zero (S := S2048x1) hz2, View.ld_unit_zero (S := S1x128) hz2]

/-- and zeroes the accumulator before adding the tile's total, read over the row it has just stored. -/
theorem acc_A (c : Dev nD) (i : grid0.Coords) (arg2 : Memref sig .tc .vmem S2048x1024 .f32) (harg2 : arg2.IsWhole) (arg3 : Memref sig .tc .vmem S128x1024 .f32) (harg3 : arg3.IsWhole) (arg4 : Memref sig .tc .vmem S2048x1 .i32) (harg4 : arg4.IsWhole) (arg5 : Memref sig .tc .vmem S1x1x1 .f32) (harg5 : arg5.IsWhole) (arg6 : Memref sig .tc .vmem S1x1 .f32) (harg6 : arg6.IsWhole) (arg7 : Memref sig .tc .vmem S1x128 .f32) (harg7 : arg7.IsWhole) (hc0 : cond0_0 i) (hc1 : ¬cond0_1 i)
    (x0 : Vec F S2048x1024 .f32) (x1 : Vec F S128x1024 .f32) (x2 : Vec F S2048x1 .i32) :
    sout0_A_0 c i arg2 harg2 arg3 harg3 arg4 harg4 arg5 harg5 arg6 harg6 arg7 harg7 hc0 hc1 x0 x1 x2 = k0_pay1 (k0_pay6 x1 x0 x2 (k0_pay5 x1)) (k0_pay4 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S1x1) hz2]
  simp only [View.readAt_eq_ld, harg2.read_unread, harg3.read_unread, harg4.read_unread, harg5.read_unread, harg6.read_unread, harg7.read_unread,
    View.ld_unit_zero (S := S1x1) hz2, View.ld_unit_zero (S := S2048x1024) hz2, View.ld_unit_zero (S := S128x1024) hz2,
    View.ld_unit_zero (S := S2048x1) hz2, View.ld_unit_zero (S := S1x128) hz2, View.readCov_unit_zero (S := S1x1) _ hz2, View.readCov_unit_zero (S := S1x128) _ hz2]

end Cert.KernelIdeal.Pieces

end
-- ==== Proof.LibKeepdims.lean ====
/-
  Sums that keep a unit axis, read at an entry, for any length.

  A sum along the lanes of an `n × k` block gives a length-`n` vector; kept as an `n × 1` column it is summed again, down
  the column, into a one-entry vector, which is kept as a `1 × 1` cell. Each re-shaping moves no entry: position `r` of
  the vector is entry `(r, 0)` of the column, and the one entry of the one-entry vector is the one entry of the cell. The
  column sum at its one result entry is the sum of the column's `n` entries.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A length-`a` vector kept as an `a × 1` column reads, at `(r, u)`, the vector at `r`. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) := by
  refine shapeCast_apply x h (ix2 r u) (ix1 r) ?_
  rw [Shape.rowMajor_val_one, Shape.rowMajor_val_two]
  show r.val = r.val * 1 + u.val
  have := u.isLt
  omega

/-- A one-entry vector kept as a `1 × 1` cell reads, at the cell's entry, the vector's entry. -/
theorem shapeCast_1_11_apply (x : (⟨1, ![1]⟩ : Shape).Idx → α)
    (h : (⟨1, ![1]⟩ : Shape).ShapeCasts ⟨2, ![1, 1]⟩) (j : (⟨2, ![1, 1]⟩ : Shape).Idx) :
    shapeCast ⟨2, ![1, 1]⟩ x h j = x (ix1 (0 : Fin 1)) := by
  refine shapeCast_apply x h j (ix1 (0 : Fin 1)) ?_
  rw [Shape.rowMajor_val_one, Shape.rowMajor_val_two]
  show (0 : ℕ) = (j 0).val * 1 + (j 1).val
  have h0 : (j 0).val < 1 := (j 0).isLt
  have h1 : (j 1).val < 1 := (j 1).isLt
  omega

/-- A `1 × 1` cell flattened to a scalar reads the cell's entry. -/
theorem shapeCast_11_scalar_apply (x : (⟨2, ![1, 1]⟩ : Shape).Idx → α)
    (h : (⟨2, ![1, 1]⟩ : Shape).ShapeCasts ⟨0, ![]⟩) (j : (⟨0, ![]⟩ : Shape).Idx) :
    shapeCast ⟨0, ![]⟩ x h j = x (ix2 (0 : Fin 1) (0 : Fin 1)) := by
  refine shapeCast_apply x h j (ix2 (0 : Fin 1) (0 : Fin 1)) ?_
  rw [Shape.rowMajor_val_two]
  show (0 : ℕ) * 1 + 0 = _
  have := ((⟨0, ![]⟩ : Shape).rowMajor j).isLt
  have hn : (⟨0, ![]⟩ : Shape).numel = 1 := rfl
  omega

/-- The index of an `n × 1` column over the one result entry with the row `r` put back. -/
theorem lift_col {n : ℕ} (h : (⟨2, ![n, 1]⟩ : Shape).Reduces [0] ⟨1, ![1]⟩) (j : (⟨1, ![1]⟩ : Shape).Idx) (r : Fin n) :
    h.lift j r = ix2 r (0 : Fin 1) := by
  funext ax; apply Fin.ext
  match ax with
  | ⟨0, _⟩ => rfl
  | ⟨1, _⟩ =>
    show (j 0).val = 0
    have : (j 0).val < 1 := (j 0).isLt
    omega

/-- An f32 sum down an `n × 1` column from the zero word reads, at its one entry, the sum of the column's entries. -/
theorem colSum_f32_apply {n : ℕ} (src : FVec Ideal ⟨2, ![n, 1]⟩ .f32)
    (h : (⟨2, ![n, 1]⟩ : Shape).Reduces [0] ⟨1, ![1]⟩) (hφ : FKind.Formats .f32)
    (hacc : (0x00000000#32 : BitVec 32) = 0x00000000#32) (j : (⟨1, ![1]⟩ : Shape).Idx) :
    multiReduction .add [0] ⟨1, ![1]⟩ src 0x00000000#32 h hφ hacc j = ∑ r : Fin n, src (ix2 r (0 : Fin 1)) := by
  refine (Ideal.multiReduction_add_single src 0x00000000#32 h hφ hacc j).trans ?_
  exact Finset.sum_congr rfl fun r _ => congrArg src (lift_col h j r)

end Cert.Lib.Keepdims

end
-- ==== Proof.LibRowOps.lean ====
/-
  Two readings, at an entry, of operations on the rows of a matrix, for any sizes.

  A sum along the lanes of an `n × k` array gives one number per row: at row `r` it is the sum of that row's `k`
  entries.  An `a × 1` column spread over `b` lanes repeats each row's one entry along the row: at `(p, c)` it reads
  the column's entry of row `p`, whatever the lane `c` (also when `a = 1`).
-/
import Idealize.ShloMosaic.Lib.Pipeline.Value
import Idealize.ShloMosaic.Lib.ValueIdx
import Idealize.ShloMosaic.PureOps.Ideal.Laws

noncomputable section

open scoped BigOperators

namespace Cert.Lib.RowOps

open Idealize.ShloMosaic Idealize.ShloMosaic.ValueIdx

/-- A sum along the lanes of an `n × k` array from the zero word reads, at row `r`, the sum of that row's entries. -/
theorem laneSum_apply {n k : ℕ} (src : FVec Ideal ⟨2, ![n, k]⟩ .f32) (h : (⟨2, ![n, k]⟩ : Shape).Reduces [1] ⟨1, ![n]⟩)
    (hφ : FKind.Formats .f32) (hacc : (0x00000000#32 : BitVec 32) = 0x00000000#32) (r : Fin n) :
    multiReduction .add [1] ⟨1, ![n]⟩ src 0x00000000#32 h hφ hacc (ix1 r) = ∑ c : Fin k, src (ix2 r c) := by
  refine (Ideal.multiReduction_add_single src 0x00000000#32 h hφ hacc (ix1 r)).trans ?_
  exact Finset.sum_congr rfl fun c _ => congrArg src (funext fun ax => Fin.ext (by
    match ax with
    | ⟨0, _⟩ => rfl
    | ⟨1, _⟩ => rfl))

/-- An `a × 1` column spread over `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.RowOps

end
-- ==== Proof.LibGram.lean ====
/-
  Readings, at an entry, of the operations a table of distances between the rows of two arrays is built from, for any
  sizes.

  The squared distance between row `a` of one array and row `b` of another is the sum of the two rows' squared norms
  minus twice their inner product. A kernel keeps the first array's squared norms as a column (a length-`a` vector cast
  to `a × 1`), and takes the inner products by a matrix product that contracts one axis of each operand. The lemmas
  below read these two operations at an entry; the last one is the law by which halving a negated number is multiplying
  the number by minus one half, on every extended real.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Gram

open Idealize.ShloMosaic Idealize.ShloMosaic.ValueIdx

variable {α : Type}

/-- A length-`a` vector cast to an `a × 1` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix product accumulated into zero whose dimension numbers contract ONE axis, of extent `k`, reads at an
    output entry `j` the sum over that axis's coordinate `c` of the products of the two operands at the entries
    `li c` and `ri c` the dimension numbers pair with `j` and `c`. -/
theorem matmul_zero_single_apply {sl sr so : Shape} {φ₁ φ₂ : FTy} (D : DotDims sl sr so) (k : ℕ)
    (hrank : D.contr.rank = 1) (hsize : D.contr.size ⟨0, by omega⟩ = k) (prec : Option ContractPrecision)
    (A : FVec Ideal sl φ₁) (B : FVec Ideal sr φ₂) (j : so.Idx) (li : Fin k → sl.Idx) (ri : Fin k → sr.Idx)
    (hl : ∀ c, D.lhsIdx j ((contrEquiv1 D k hrank hsize).symm c) = li c)
    (hr : ∀ c, D.rhsIdx j ((contrEquiv1 D k hrank hsize).symm c) = ri c) :
    matmul D prec A B (constant so .f32 0x00000000#32) j = ∑ c : Fin k, A (li c) * B (ri c) := by
  show FloatOps.matmul D prec A B _ j = _
  rw [Ideal.matmul_constant_zero_apply, ← Equiv.sum_comp (contrEquiv1 D k hrank hsize).symm]
  exact Finset.sum_congr rfl fun c _ => by rw [hl c, hr c]

/-- Halving the negation of an extended real is multiplying it by minus one half: division by the real `2` is the
    product with `1/2`, and a sign moves freely across a product — also at the two infinities. -/
theorem div_neg_two (d : EReal) : Ideal.div (-d) ((2 : ℝ) : EReal) = d * ((-(1 / 2) : ℝ) : EReal) := by
  rw [Ideal.div_coe (by norm_num : (2 : ℝ) ≠ 0), EReal.coe_neg, mul_neg, neg_mul]

end Cert.Lib.Gram

end
-- ==== Proof.KPayload.lean ====
import proofs.«160003_j14877766713743_2_alg».proof.Proof.Gen.KernelIdeal.Skeleton
import proofs.«160003_j14877766713743_2_alg».proof.Proof.Spec
import proofs.«160003_j14877766713743_2_alg».proof.Proof.LibFlags
import proofs.«160003_j14877766713743_2_alg».proof.Proof.LibKeepdims
import proofs.«160003_j14877766713743_2_alg».proof.Proof.LibRowOps
import proofs.«160003_j14877766713743_2_alg».proof.Proof.LibGram
import Idealize.ShloMosaic.Lib.Pipeline.Value
import Idealize.ShloMosaic.Lib.ValueIdx
import Idealize.ShloMosaic.Lib.ValueLayout
import Idealize.ShloMosaic.PureOps.Ideal.Laws

/-!
  The body's arithmetic read at an entry, over the extended reals.

  One step of the kernel holds a tile `x` of 2048 rows, the 128 padded centres `cp`, the tile's labels, the carried
  squared-norm row and the carried accumulator. Its arithmetic is cut here into a few named arrays — the rows' squared
  norms as a column, the products of the rows with the centres, the lanes a row leaves out, the kept clamped
  distances — each read at an entry by one short lemma; the printed payload is their composition, by unfolding. Lane
  `j` of row `r` of the kept distances is the padded-lane term of the specification when the carried row holds the
  centres' squared norms, so a row's 128 lanes add up to the row's contribution and the 2048 rows to the tile's.
-/

noncomputable section

open scoped BigOperators

namespace Cert.KernelIdeal.Payload

open Idealize.ShloMosaic Idealize.ShloMosaic.ValueIdx
open Cert.KernelIdeal Cert.KernelIdeal.Gen Cert.Proximity

/-- The squared norms of the tile's rows, kept as a column. -/
def rowSq (x : Vec Ideal S2048x1024 .f32) : FVec Ideal S2048x1 .f32 :=
  shapeCast S2048x1 (multiReduction (F := Ideal) .add [1] S2048 (mulf x x) 0x00000000#32 reduces_S2048x1024_S2048 (.inl rfl) rfl)
    shapeCasts_S2048_S2048x1

/-- The products of the tile's rows with the padded centres: entry `(r, j)` pairs row `r` with centre `j`. -/
def dots (cp : Vec Ideal S128x1024 .f32) (x : Vec Ideal S2048x1024 .f32) : FVec Ideal S2048x128 .f32 :=
  matmul dot_S2048x1024_S1024x128_S2048x128_1_0_0_1_n_n none (truncf .bf16 x bitsLt_bf16_f32)
    (transpose S1024x128 [1, 0] (truncf .bf16 (k0_pay3 cp) bitsLt_bf16_f32) transposes_S128x1024_p1_0_S1024x128)
    (constant (F := Ideal) S2048x128 .f32 0x00000000#32)

/-- The expanded squared distances, before clamping, over the carried squared-norm row `cs`. -/
def dist (cp : Vec Ideal S128x1024 .f32) (x : Vec Ideal S2048x1024 .f32) (cs : Vec Ideal S1x128 .f32) : FVec Ideal S2048x128 .f32 :=
  subf (addf (broadcastTo S2048x128 (rowSq x) broadcasts_S2048x1_S2048x128) (broadcastTo S2048x128 cs broadcasts_S1x128_S2048x128))
    (mulf (broadcast S2048x128 (Scalar.ofBits (F := Ideal) .f32 0x40000000#32)) (dots cp x))

/-- The lanes a row leaves out: its own class, and every lane past the 43 classes. -/
def excluded (lb : Vec Ideal S2048x1 .i32) : IVec S2048x128 1 :=
  ori (cmpi .eq (iota .tc S2048x128 32 [1] iota_S2048x128_d1_w32)
      (broadcastTo S2048x128 (shapeCast S2048x1 lb shapeCasts_S2048x1_S2048x1 : IVec S2048x1 32) broadcasts_S2048x1_S2048x128))
    (xori (cmpi .slt (iota .tc S2048x128 32 [1] iota_S2048x128_d1_w32) (broadcast S2048x128 43#32)) (constantI S2048x128 1 1#1))

/-- The kept clamped distances: zero on the excluded lanes. -/
def keptLanes (cp : Vec Ideal S128x1024 .f32) (x : Vec Ideal S2048x1024 .f32) (lb : Vec Ideal S2048x1 .i32)
    (cs : Vec Ideal S1x128 .f32) : FVec Ideal S2048x128 .f32 :=
  select (excluded lb) (broadcast S2048x128 (Scalar.ofBits (F := Ideal) .f32 0x00000000#32))
    (minimumf (broadcast S2048x128 (Scalar.ofBits (F := Ideal) .f32 0x5368D4A5#32))
      (maximumf (broadcast S2048x128 (Scalar.ofBits (F := Ideal) .f32 0x2B8CBCCC#32)) (dist cp x cs)))

/-- The tile's row sums, as the body computes them, are the lane sums of the kept distances kept as a column. -/
theorem pay6_eq (cp : Vec Ideal S128x1024 .f32) (x : Vec Ideal S2048x1024 .f32) (lb : Vec Ideal S2048x1 .i32)
    (cs : Vec Ideal S1x128 .f32) :
    k0_pay6 (F := Ideal) cp x lb cs
      = shapeCast S2048x1 (multiReduction (F := Ideal) .add [1] S2048 (keptLanes cp x lb cs) 0x00000000#32
          reduces_S2048x128_S2048 (.inl rfl) rfl) shapeCasts_S2048_S2048x1 := rfl

/-! ## Each array at an entry -/

/-- Row `r`'s entry of the squared-norm column is the row's squared norm. -/
theorem rowSq_apply (x : Vec Ideal S2048x1024 .f32) (r : Fin 2048) (u : Fin 1) :
    rowSq x (ix2 r u) = sqnorm x r := by
  unfold rowSq
  rw [Cert.Lib.Keepdims.shapeCast_a_a1_apply, Cert.Lib.RowOps.laneSum_apply]
  rfl

/-- The contraction's index maps, coordinate by coordinate: the left operand is read at (the output's row, the
    contracted feature), the right at (the contracted feature, the output's lane). -/
theorem lhs_coord0 (i : S2048x128.Idx) (q : dot_S2048x1024_S1024x128_S2048x128_1_0_0_1_n_n.contr.Idx) : (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide),
    dif_pos (show (0 : Fin S2048x1024.rank) ∈ dot_S2048x1024_S1024x128_S2048x128_1_0_0_1_n_n.lhsNonContracting by decide)]
  rfl
theorem lhs_coord1 (i : S2048x128.Idx) (q : dot_S2048x1024_S1024x128_S2048x128_1_0_0_1_n_n.contr.Idx) : (dot_S2048x1024_S1024x128_S2048x128_1_0_0_1_n_n.lhsIdx i q 1).val = (q ⟨0, by decide⟩).val :=
  dot_S2048x1024_S1024x128_S2048x128_1_0_0_1_n_n.lhsIdx_val_of_single rfl i q
theorem rhs_coord0 (i : S2048x128.Idx) (q : dot_S2048x1024_S1024x128_S2048x128_1_0_0_1_n_n.contr.Idx) : (dot_S2048x1024_S1024x128_S2048x128_1_0_0_1_n_n.rhsIdx i q 0).val = (q ⟨0, by decide⟩).val :=
  dot_S2048x1024_S1024x128_S2048x128_1_0_0_1_n_n.rhsIdx_val_of_single rfl i q
theorem rhs_coord1 (i : S2048x128.Idx) (q : dot_S2048x1024_S1024x128_S2048x128_1_0_0_1_n_n.contr.Idx) : (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide),
    dif_pos (show (1 : Fin S1024x128.rank) ∈ dot_S2048x1024_S1024x128_S2048x128_1_0_0_1_n_n.rhsNonContracting by decide)]
  rfl

/-- Entry `(r, j)` of the products is the inner product of row `r` with centre `j`: the contraction runs over the
    1024 features, the change of float format is the identity, and the centres enter transposed. -/
theorem dots_apply (cp : Vec Ideal S128x1024 .f32) (x : Vec Ideal S2048x1024 .f32) (r : Fin 2048) (j : Fin 128) :
    dots cp x (ix2 r j) = Proximity.inner x cp r j := by
  unfold dots
  rw [Cert.Lib.Gram.matmul_zero_single_apply dot_S2048x1024_S1024x128_S2048x128_1_0_0_1_n_n 1024 rfl rfl none _ _ (ix2 r j)
    (fun d => ix2 r d) (fun d => ix2 d j)
    (fun d => funext fun a => Fin.ext (by
      have hk := contrEquiv1_symm_val dot_S2048x1024_S1024x128_S2048x128_1_0_0_1_n_n 1024 rfl rfl d
      match a with
      | ⟨0, _⟩ => exact lhs_coord0 _ _
      | ⟨1, _⟩ => exact (lhs_coord1 _ _).trans hk))
    (fun d => funext fun a => Fin.ext (by
      have hk := contrEquiv1_symm_val dot_S2048x1024_S1024x128_S2048x128_1_0_0_1_n_n 1024 rfl rfl d
      match a with
      | ⟨0, _⟩ => exact (rhs_coord0 _ _).trans hk
      | ⟨1, _⟩ => exact rhs_coord1 _ _))]
  unfold Proximity.inner
  refine Finset.sum_congr rfl fun d _ => ?_
  rw [truncf_apply, transpose_ix2_apply, truncf_apply]
  unfold k0_pay3
  rw [shapeCast_self]

/-- Entry `(r, j)` of the unclamped distances. -/
theorem dist_apply (cp : Vec Ideal S128x1024 .f32) (x : Vec Ideal S2048x1024 .f32) (cs : Vec Ideal S1x128 .f32)
    (r : Fin 2048) (j : Fin 128) :
    dist cp x cs (ix2 r j) = sqnorm x r + cs (ix2 (0 : Fin 1) j) - two * Proximity.inner x cp r j := by
  unfold dist
  rw [subf_apply, addf_apply, mulf_apply, broadcast_apply, Cert.Lib.RowOps.broadcastTo_a1_ab_apply, rowSq_apply,
    broadcastTo_1b_ab_apply, dots_apply]
  rfl

/-- Lane `j` of row `r` is left out exactly when `j` is the row's label or lies past the 43 classes. -/
theorem excluded_apply (lb : Vec Ideal S2048x1 .i32) (r : Fin 2048) (j : Fin 128) :
    excluded lb (ix2 r j) = 1#1 ↔ (BitVec.ofNat 32 j.val = lb (ix2 r (0 : Fin 1)) ∨ ¬ j.val < 43) := by
  have hj := j.isLt
  show IntOp.ori (IntOp.cmpi .eq (iota .tc S2048x128 32 [1] iota_S2048x128_d1_w32 (ix2 r j))
      (broadcastTo S2048x128 (shapeCast S2048x1 lb shapeCasts_S2048x1_S2048x1 : IVec S2048x1 32) broadcasts_S2048x1_S2048x128 (ix2 r j)))
    (IntOp.xori (IntOp.cmpi .slt (iota .tc S2048x128 32 [1] iota_S2048x128_d1_w32 (ix2 r j)) 43#32) 1#1) = 1#1 ↔ _
  rw [iota_single_apply, Cert.Lib.RowOps.broadcastTo_a1_ab_apply, shapeCast_self, Cert.Lib.Flags.ori_eq_one_iff,
    Cert.Lib.Flags.xori_one_eq_one_iff, Cert.Lib.Flags.cmpi_eq_eq_one_iff]
  have h43 : IntOp.cmpi .slt (BitVec.ofNat 32 ((ix2 r j : S2048x128.Idx) 1).val) 43#32 = 1#1 ↔ j.val < 43 :=
    Cert.Lib.Flags.cmpi_slt_ofNat_eq_one_iff (a := j.val) (b := 43) (by omega) (by norm_num)
  rw [h43]

/-- Lane `j` of row `r` of the kept distances, over a carried row holding the padded centres' squared norms, is
    the specification's padded-lane term for the tile, the padded centres and the tile's labels. -/
theorem keptLanes_apply (cp : Vec Ideal S128x1024 .f32) (x : Vec Ideal S2048x1024 .f32) (lb : Vec Ideal S2048x1 .i32)
    (cs : Vec Ideal S1x128 .f32) (hcs : ∀ j : Fin 128, cs (ix2 (0 : Fin 1) j) = sqnorm cp j) (r : Fin 2048) (j : Fin 128) :
    keptLanes cp x lb cs (ix2 r j) = keptLane x cp (fun r => lb (ix2 r (0 : Fin 1))) r j := by
  unfold keptLanes keptLane
  rw [select_apply, Cert.Lib.Flags.select_eq_ite]
  refine if_congr (excluded_apply lb r j) ?_ ?_
  · rw [broadcast_apply]; exact Ideal.ofBits_zero_f32
  · rw [minimumf_apply, maximumf_apply, broadcast_apply, broadcast_apply, dist_apply, hcs]
    rfl

/-- Row `r`'s entry of the tile's row sums is the sum of the row's 128 padded-lane terms. -/
theorem pay6_apply (cp : Vec Ideal S128x1024 .f32) (x : Vec Ideal S2048x1024 .f32) (lb : Vec Ideal S2048x1 .i32)
    (cs : Vec Ideal S1x128 .f32) (hcs : ∀ j : Fin 128, cs (ix2 (0 : Fin 1) j) = sqnorm cp j) (r : Fin 2048) (u : Fin 1) :
    k0_pay6 (F := Ideal) cp x lb cs (ix2 r u) = ∑ j : Fin 128, keptLane x cp (fun r => lb (ix2 r (0 : Fin 1))) r j := by
  rw [pay6_eq, Cert.Lib.Keepdims.shapeCast_a_a1_apply, Cert.Lib.RowOps.laneSum_apply]
  exact Finset.sum_congr rfl fun j _ => keptLanes_apply cp x lb cs hcs r j

/-- Lane `j` of the row the first step stores is the squared norm of padded centre `j`. -/
theorem pay5_apply (cp : Vec Ideal S128x1024 .f32) (j : Fin 128) :
    k0_pay5 (F := Ideal) cp (ix2 (0 : Fin 1) j) = sqnorm cp j := by
  unfold k0_pay5 k0_pay3
  try dsimp only
  rw [shapeCast_self, transpose_ix2_apply, Cert.Lib.Keepdims.shapeCast_a_a1_apply, Cert.Lib.RowOps.laneSum_apply]
  simp only [shapeCast_self]
  rfl

/-- The accumulator after a step: what it held plus the sum of the tile's 2048 row sums. -/
theorem pay1_apply (rs : FVec Ideal S2048x1 .f32) (acc : Vec Ideal S1x1 .f32) (i : S1x1.Idx) :
    k0_pay1 (F := Ideal) rs acc i = acc i + ∑ r : Fin 2048, rs (ix2 r (0 : Fin 1)) := by
  unfold k0_pay1
  try dsimp only
  rw [shapeCast_self, addf_apply, Cert.Lib.Keepdims.shapeCast_1_11_apply, Cert.Lib.Keepdims.colSum_f32_apply]

/-- The accumulator restarts from zero. -/
theorem pay4_apply (i : S1x1.Idx) : k0_pay4 (F := Ideal) i = 0 := by
  unfold k0_pay4
  try dsimp only
  rw [shapeCast_self, broadcast_apply]
  exact Ideal.ofBits_zero_f32

/-- The output cell receives the accumulator's one entry. -/
theorem pay2_apply (acc : Vec Ideal S1x1 .f32) (i : S1x1x1.Idx) :
    k0_pay2 (F := Ideal) acc i = acc (ix2 (0 : Fin 1) (0 : Fin 1)) := by
  unfold k0_pay2
  try dsimp only
  refine shapeCast_apply acc shapeCasts_S1x1_S1x1x1 i (ix2 (0 : Fin 1) (0 : Fin 1)) ?_
  rw [Shape.rowMajor_val_two, Shape.rowMajor_val_three]
  have h0 : (i 0).val < 1 := (i 0).isLt
  have h1 : (i 1).val < 1 := (i 1).isLt
  have h2 : (i 2).val < 1 := (i 2).isLt
  show (0 : ℕ) * 1 + 0 = ((i 0).val * 1 + (i 1).val) * 1 + (i 2).val
  omega

end Cert.KernelIdeal.Payload

end
-- ==== Proof.KBlocks.lean ====
import proofs.«160003_j14877766713743_2_alg».proof.Proof.Gen.KernelIdeal.Frame
import proofs.«160003_j14877766713743_2_alg».proof.Proof.LibKeepdims
import Idealize.ShloMosaic.Lib.Pipeline.Value
import Idealize.ShloMosaic.Lib.ValueIdx
import Idealize.ShloMosaic.Lib.StableHlo.Run
import Idealize.ShloMosaic.Lib.KernelVsHost

/-!
  What the body's three input blocks are, at step `t` of the 16, as entries of the whole arrays.

  The feature rows and the labels are walked tile by tile: row `r` of the block at step `t` is row `2048·t + r` of
  the array. The padded centres are one block, the same at every step. Two of the arrays are written by the host
  before the kernel starts: the centres padded with 85 rows of the padding value, whose first 43 rows are the centres,
  and the labels kept as a one-lane column, whose row `i` is label `i`.
-/

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The feature tiles' index map: tile `t`, all columns. -/
theorem idx_rows : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- The padded centres' index map: the one block. -/
theorem idx_centres : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- The label tiles' index map: tile `t`, the one lane. -/
theorem idx_labels : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Row `r` of tile `t` is a row of the batch. -/
theorem row_lt (t : Fin cfg0.N) (r : Fin 2048) : t.val * 2048 + r.val < 32768 := by
  have h1 := t.isLt
  have h2 : cfg0.N = 16 := N_0
  have h3 := r.isLt
  omega

/-- Entry `(r, d)` of the feature block at step `t` is entry `(2048·t + r, d)` of the feature array. -/
theorem rows_apply (c : Dev nD) (t : Fin cfg0.N) (r : Fin 2048) (d : Fin 1024) :
    (iblk m c 0 t : Vec F S2048x1024 .f32) (ix2 r d) = V m c main_arg0 (ix2 ⟨t.val * 2048 + r.val, row_lt t r⟩ d) := by
  unfold iblk
  rw [View.read_apply]
  show V m c main_arg0 _ = V m c main_arg0 _
  refine congrArg _ (funext fun a => Fin.ext ?_)
  match a with
  | ⟨0, _⟩ => show win0_0.index t 0 * 2048 + 1 * r.val = t.val * 2048 + r.val; rw [(idx_rows t).1]; omega
  | ⟨1, _⟩ => show win0_0.index t 1 * 1024 + 1 * d.val = d.val; rw [(idx_rows t).2]; omega

/-- The padded centres' block is the padded centres' array, at every step. -/
theorem centres_apply (c : Dev nD) (t : Fin cfg0.N) (j : Fin 128) (d : Fin 1024) :
    (iblk m c 1 t : Vec F S128x1024 .f32) (ix2 j d) = V m c main_v0 (ix2 j d) := by
  unfold iblk
  rw [View.read_apply]
  show V m c main_v0 _ = V m c main_v0 _
  refine congrArg _ (funext fun a => Fin.ext ?_)
  match a with
  | ⟨0, _⟩ => show win0_1.index t 0 * 128 + 1 * j.val = j.val; rw [(idx_centres t).1]; omega
  | ⟨1, _⟩ => show win0_1.index t 1 * 1024 + 1 * d.val = d.val; rw [(idx_centres t).2]; omega

/-- Entry `(r, u)` of the label block at step `t` is entry `(2048·t + r, u)` of the label column. -/
theorem labels_apply (c : Dev nD) (t : Fin cfg0.N) (r : Fin 2048) (u : Fin 1) :
    (iblk m c 2 t : Vec F S2048x1 .i32) (ix2 r u) = V m c main_v1 (ix2 ⟨t.val * 2048 + r.val, row_lt t r⟩ u) := by
  unfold iblk
  rw [View.read_apply]
  show V m c main_v1 _ = V m c main_v1 _
  refine congrArg _ (funext fun a => Fin.ext ?_)
  match a with
  | ⟨0, _⟩ => show win0_2.index t 0 * 2048 + 1 * r.val = t.val * 2048 + r.val; rw [(idx_labels t).1]; omega
  | ⟨1, _⟩ => show win0_2.index t 1 * 1 + 1 * u.val = u.val; rw [(idx_labels t).2]; omega

/-- The label column the kernel is handed is the label vector kept as a column. -/
theorem V_labels (c : Dev nD) :
    (V m c main_v1 : S32768x1.Idx → BitVec 32)
      = shapeCast S32768x1 (m ((c : Thread nD τ).loc main_arg2)) shapeCasts_S32768_S32768x1 := by
  dsimp only [V, V0]
  simp only [hostOps0, hostOps0_1, hostOps0_2, List.flatten_cons, List.flatten_nil, List.append_nil, List.cons_append,
    List.nil_append]
  after_results
  rfl

/-- The padded centres the kernel is handed are the centres padded below with 85 rows of the integer zero made a float. -/
theorem V_centres (c : Dev nD) :
    (V m c main_v0 : S128x1024.Idx → F .f32)
      = pad S128x1024 ![0, 0] ![85, 0] ![0, 0] (m ((c : Thread nD τ).loc main_arg1))
          (sitofp (F := F) .f32 (constantI S_ 32 0#32)) pads_S43x1024_S128x1024_0850_000 h_S_ := by
  dsimp only [V, V0]
  simp only [hostOps0, hostOps0_1, hostOps0_2, List.flatten_cons, List.flatten_nil, List.append_nil, List.cons_append,
    List.nil_append]
  after_results
  rfl

/-- Row `i` of the label column is label `i`. -/
theorem label_entry (c : Dev nD) (i : Fin 32768) (u : Fin 1) :
    V m c main_v1 (ix2 i u) = m ((c : Thread nD τ).loc main_arg2) (ix1 i) := by
  rw [V_labels]
  exact Cert.Lib.Keepdims.shapeCast_a_a1_apply _ _ i u

/-- The first 43 rows of the padded centres are the centres. -/
theorem centre_entry (c : Dev nD) (j : Fin 43) (d : Fin 1024) :
    V m c main_v0 (ix2 ⟨j.val, by have := j.isLt; omega⟩ d) = m ((c : Thread nD τ).loc main_arg1) (ix2 j d) := by
  rw [V_centres]
  refine pad_apply_of_inside _ _ _ _ _ _ _ _ (ix2 j d) fun a => ?_
  match a with
  | ⟨0, _⟩ => show j.val = 0 + j.val * (0 + 1); omega
  | ⟨1, _⟩ => show d.val = 0 + d.val * (0 + 1); omega

end Cert.KernelIdeal.Blocks

end
-- ==== Proof.KAccum.lean ====
import proofs.«160003_j14877766713743_2_alg».proof.Proof.Gen.KernelIdeal.Frame
import proofs.«160003_j14877766713743_2_alg».proof.Proof.Spec
import proofs.«160003_j14877766713743_2_alg».proof.Proof.KPieces
import proofs.«160003_j14877766713743_2_alg».proof.Proof.KPayload
import proofs.«160003_j14877766713743_2_alg».proof.Proof.KBlocks
import Idealize.ShloMosaic.Lib.Pipeline.Value
import Idealize.ShloMosaic.Lib.ValueIdx

/-!
  The accumulation over the 16 steps, over the extended reals.

  Two quantities are carried from step to step. The centres' squared-norm row is stored at the first step of each half
  and only read afterwards: at every step it holds the padded centres' squared norms. The accumulator restarts at the
  first step of a half at `0 + ` that tile's total and gains each later tile's total: at the last step of half `q` it
  holds `0 + Σ_{s < 8}` (the total of tile `8q + s`), and that value is what the step copies to the half's output cell.
  A tile's total is the specification's: the sum over its 2048 rows of the row's contribution over the 43 classes.
-/

set_option maxRecDepth 16384

noncomputable section

open scoped BigOperators

namespace Cert.KernelIdeal.Accum

open Idealize.ShloMosaic Idealize.ShloMosaic.TcCoe Idealize.ShloMosaic.ValueIdx Idealize.SL.Sem
open Cert.KernelIdeal Cert.KernelIdeal.Gen Cert.Proximity
open Cert.KernelIdeal.Pieces Cert.KernelIdeal.Payload Cert.KernelIdeal.Blocks

variable (m : (ℓ : Loc nD τ sig) → Buf (Elt Ideal) ℓ)

/-- The feature rows, the centres and the labels the program is launched with, and the padded centres the kernel is
    handed. -/
abbrev feats (c : Dev nD) : Mat 32768 1024 := m ((c : Thread nD τ).loc main_arg0)
abbrev centres (c : Dev nD) : Mat 43 1024 := m ((c : Thread nD τ).loc main_arg1)
abbrev labs (c : Dev nD) : Fin 32768 → BitVec 32 := fun i => m ((c : Thread nD τ).loc main_arg2) (ix1 i)
abbrev padded (c : Dev nD) : Mat 128 1024 := V m c main_v0

/-- What the step before left (at the first step: whatever the recursion's junk is; it is never consulted there). -/
abbrev prev (c : Dev nD) (t : Fin cfg0.N) := outsAt0 m c (t.val - 1) (Nat.lt_of_le_of_lt (Nat.sub_le _ _) t.isLt)

/-! ## The three cases at a step, over that step's blocks -/

theorem csq_first (c : Dev nD) (t : Fin cfg0.N) (h0 : t.val % 8 = 0) (h1 : ¬t.val % 8 = 7) :
    (outsAt0 m c t.val t.isLt).2.2 = k0_pay5 (F := Ideal) (iblk m c 1 t) := by
  rw [outsAt0_A m c t h0 h1]
  exact csq_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h))
    (iblk m c 0 t) (iblk m c 1 t) (iblk m c 2 t)

theorem acc_first (c : Dev nD) (t : Fin cfg0.N) (h0 : t.val % 8 = 0) (h1 : ¬t.val % 8 = 7) :
    (outsAt0 m c t.val t.isLt).2.1
      = k0_pay1 (F := Ideal) (k0_pay6 (iblk m c 1 t) (iblk m c 0 t) (iblk m c 2 t) (k0_pay5 (F := Ideal) (iblk m c 1 t))) (k0_pay4 (F := Ideal)) := by
  rw [outsAt0_A m c t h0 h1]
  exact acc_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h))
    (iblk m c 0 t) (iblk m c 1 t) (iblk m c 2 t)

theorem csq_later (c : Dev nD) (t : Fin cfg0.N) (h0 : ¬t.val % 8 = 0) :
    (outsAt0 m c t.val t.isLt).2.2 = (prev m c t).2.2 := by
  by_cases h1 : t.val % 8 = 7
  · rw [outsAt0_C m c t h0 h1]; rfl
  · rw [outsAt0_B m c t h0 h1]; rfl

theorem acc_later (c : Dev nD) (t : Fin cfg0.N) (h0 : ¬t.val % 8 = 0) :
    (outsAt0 m c t.val t.isLt).2.1
      = k0_pay1 (F := Ideal) (k0_pay6 (iblk m c 1 t) (iblk m c 0 t) (iblk m c 2 t) (prev m c t).2.2) (prev m c t).2.1 := by
  by_cases h1 : t.val % 8 = 7
  · rw [outsAt0_C m c t h0 h1]
    exact acc_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1)
      (iblk m c 0 t) (iblk m c 1 t) (iblk m c 2 t) (prev m c t).2.1 (prev m c t).2.2
  · rw [outsAt0_B m c t h0 h1]
    exact acc_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h))
      (iblk m c 0 t) (iblk m c 1 t) (iblk m c 2 t) (prev m c t).2.1 (prev m c t).2.2

theorem out_last (c : Dev nD) (t : Fin cfg0.N) (h0 : ¬t.val % 8 = 0) (h1 : t.val % 8 = 7) :
    (outsAt0 m c t.val t.isLt).1
      = k0_pay2 (F := Ideal) (k0_pay1 (F := Ideal) (k0_pay6 (iblk m c 1 t) (iblk m c 0 t) (iblk m c 2 t) (prev m c t).2.2) (prev m c t).2.1) := by
  rw [outsAt0_C m c t h0 h1]
  exact out_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1)
    (iblk m c 0 t) (iblk m c 1 t) (iblk m c 2 t) (prev m c t).2.1 (prev m c t).2.2

/-! ## A tile's total -/

/-- The squared norms of the centres' block are the padded centres'. -/
theorem sqnorm_block (c : Dev nD) (t : Fin cfg0.N) (j : Fin 128) :
    sqnorm (iblk m c 1 t : Vec Ideal S128x1024 .f32) j = sqnorm (padded m c) j := by
  unfold sqnorm
  exact Finset.sum_congr rfl fun d _ => by rw [centres_apply m c t j d]

/-- Over a carried row that holds the padded centres' squared norms, the row sums the body computes at step `t` add
    up to tile `t`'s total: a row's 128 lanes collapse to the 43 classes, and the block's rows are the batch's. -/
theorem tile_total (c : Dev nD) (t : Fin cfg0.N) (cs : Vec Ideal S1x128 .f32)
    (hcs : ∀ j : Fin 128, cs (ix2 (0 : Fin 1) j) = sqnorm (padded m c) j) :
    ∑ r : Fin 2048, k0_pay6 (F := Ideal) (iblk m c 1 t) (iblk m c 0 t) (iblk m c 2 t) cs (ix2 r (0 : Fin 1))
      = tileKept (feats m c) (centres m c) (labs m c) t.val := by
  have ht : t.val < 16 := by have := t.isLt; have h : cfg0.N = 16 := N_0; omega
  unfold tileKept
  rw [dif_pos ht]
  refine Finset.sum_congr rfl fun r _ => ?_
  refine (pay6_apply (iblk m c 1 t) (iblk m c 0 t) (iblk m c 2 t) cs
    (fun j => (hcs j).trans (sqnorm_block m c t j).symm) r 0).trans ?_
  refine (sum_keptLane (iblk m c 0 t : Vec Ideal S2048x1024 .f32) (centres m c) (iblk m c 1 t : Vec Ideal S128x1024 .f32)
    (fun r => (iblk m c 2 t : Vec Ideal S2048x1 .i32) (ix2 r (0 : Fin 1)))
    (fun j d => (centres_apply m c t ⟨j.val, by have := j.isLt; omega⟩ d).trans (centre_entry m c j d)) r).trans ?_
  refine rowKept_congr _ _ _ _ _ r ⟨t.val * 2048 + r.val, row_lt t r⟩ (fun d => ?_) ?_
  · exact (rows_apply m c t r d).trans (congrFun (V_main_arg0 m c) _)
  · exact (labels_apply m c t r 0).trans (label_entry m c _ 0)

/-! ## The carried squared-norm row -/

/-- After every step the carried row holds the padded centres' squared norms. -/
theorem csq_inv (c : Dev nD) : ∀ (n : ℕ) (h : n < cfg0.N) (j : Fin 128),
    (outsAt0 m c n h).2.2 (ix2 (0 : Fin 1) j) = sqnorm (padded m c) j
  | 0, h, j => by
    have e := csq_first m c ⟨0, h⟩ rfl (by show ¬(0 : ℕ) % 8 = 7; omega)
    exact (congrFun e _).trans ((pay5_apply _ j).trans (sqnorm_block m c ⟨0, h⟩ j))
  | n + 1, h, j => by
    by_cases h0 : (n + 1) % 8 = 0
    · have e := csq_first m c ⟨n + 1, h⟩ h0 (by show ¬(n + 1) % 8 = 7; omega)
      exact (congrFun e _).trans ((pay5_apply _ j).trans (sqnorm_block m c ⟨n + 1, h⟩ j))
    · have e := csq_later m c ⟨n + 1, h⟩ h0
      exact (congrFun e _).trans (csq_inv c n (Nat.lt_of_succ_lt h) j)

/-! ## The accumulator -/

/-- The accumulator after step `n`, as a function of the step. -/
abbrev accAfter (c : Dev nD) (n : ℕ) (h : n < cfg0.N) : S1x1.Idx → EReal := (outsAt0 m c n h).2.1

/-- The restart: `0 + ` the tile's total. -/
abbrev restart (c : Dev nD) (n : ℕ) (_ : n < cfg0.N) : S1x1.Idx → EReal :=
  fun _ => 0 + tileKept (feats m c) (centres m c) (labs m c) n
/-- The gain: the tile's total more. -/
abbrev gain (c : Dev nD) (n : ℕ) (_ : n < cfg0.N) (acc : S1x1.Idx → EReal) : S1x1.Idx → EReal :=
  fun i => acc i + tileKept (feats m c) (centres m c) (labs m c) n

theorem acc_restart (c : Dev nD) (n : ℕ) (h : n < cfg0.N) (h0 : n % 8 = 0) : accAfter m c n h = restart m c n h := by
  funext i
  have e := acc_first m c ⟨n, h⟩ h0 (by show ¬n % 8 = 7; omega)
  refine (congrFun e i).trans ?_
  rw [pay1_apply, pay4_apply]
  exact congrArg (0 + ·) (tile_total m c ⟨n, h⟩ _ fun j => (pay5_apply _ j).trans (sqnorm_block m c ⟨n, h⟩ j))

theorem acc_gain (c : Dev nD) (n : ℕ) (h : n + 1 < cfg0.N) (h0 : ¬(n + 1) % 8 = 0) :
    accAfter m c (n + 1) h = gain m c (n + 1) h (accAfter m c n (Nat.lt_of_succ_lt h)) := by
  funext i
  have e := acc_later m c ⟨n + 1, h⟩ h0
  refine (congrFun e i).trans ?_
  rw [pay1_apply]
  exact congrArg ((outsAt0 m c n (Nat.lt_of_succ_lt h)).2.1 i + ·)
    (tile_total m c ⟨n + 1, h⟩ _ (csq_inv m c n (Nat.lt_of_succ_lt h)))

/-- One half's total: `0 + ` the sum of its eight tiles' totals. -/
def halfTotal (c : Dev nD) (q : ℕ) : EReal :=
  0 + ∑ s ∈ Finset.range 8, tileKept (feats m c) (centres m c) (labs m c) (8 * q + s)

/-- At the last step of half `q` the accumulator holds the half's total. -/
theorem acc_last (c : Dev nD) (q : ℕ) (h : 8 * q + 7 < cfg0.N) (i : S1x1.Idx) :
    (outsAt0 m c (8 * q + 7) h).2.1 i = halfTotal m c q := by
  have e := Pipeline.eq_accAt (accAfter m c) 8 (restart m c) (gain m c) (acc_restart m c) (acc_gain m c) q 7 (by norm_num) h
  refine (congrFun e i).trans ?_
  exact Pipeline.accAt_add_apply (restart m c) (gain m c) (fun _ => 0)
    (fun n _ => tileKept (feats m c) (centres m c) (labs m c) n) (8 * q) 7 (fun _ _ => rfl) (fun _ _ _ _ _ _ => rfl) 7 le_rfl h i

/-- So the last step of half `q` leaves the half's total in the output cell. -/
theorem out_at_last (c : Dev nD) (q : ℕ) (h : 8 * q + 7 < cfg0.N) (y : S1x1x1.Idx) :
    (outsAt0 m c (8 * q + 7) h).1 y = halfTotal m c q := by
  have h0 : ¬(8 * q + 7) % 8 = 0 := by omega
  have h1 : (8 * q + 7) % 8 = 7 := by omega
  have eo := out_last m c ⟨8 * q + 7, h⟩ h0 h1
  have ea := acc_later m c ⟨8 * q + 7, h⟩ h0
  refine (congrFun eo y).trans ?_
  rw [pay2_apply]
  exact (congrFun ea _).symm.trans (acc_last m c q h _)

end Cert.KernelIdeal.Accum

end
-- ==== Proof.LibCells.lean ====
import Mathlib.Algebra.BigOperators.Fin
import Mathlib.Logic.Equiv.Fin.Basic
import Idealize.ShloMosaic.Lib.ValueIdx

/-!
# Sums over index sets with trailing unit axes

General facts, over any commutative additive monoid: an index set of shape `[n, 1, 1]` is its first coordinate's
range, so a sum over it is the sum over that coordinate.
-/

open scoped BigOperators

namespace Cert.Lib.Cells

open Idealize.ShloMosaic Idealize.ShloMosaic.ValueIdx

/-- An index of shape `[n, 1, 1]` is its first coordinate followed by two zeros. -/
theorem eq_ix3_n11 {n : ℕ} (i : (⟨3, ![n, 1, 1]⟩ : Shape).Idx) : ix3 (i 0) (0 : Fin 1) (0 : Fin 1) = i := by
  funext a; apply Fin.ext
  match a with
  | ⟨0, _⟩ => rfl
  | ⟨1, _⟩ => show (0 : ℕ) = (i 1).val; have : (i 1).val < 1 := (i 1).isLt; omega
  | ⟨2, _⟩ => show (0 : ℕ) = (i 2).val; have : (i 2).val < 1 := (i 2).isLt; omega

/-- A sum over an index set of shape `[n, 1, 1]` is the sum over its first coordinate. -/
theorem sum_idx_n11 {A : Type*} [AddCommMonoid A] {n : ℕ} (f : (⟨3, ![n, 1, 1]⟩ : Shape).Idx → A) :
    ∑ i, f i = ∑ q : Fin n, f (ix3 q (0 : Fin 1) (0 : Fin 1)) := by
  let e : (⟨3, ![n, 1, 1]⟩ : Shape).Idx ≃ Fin n :=
    { toFun := fun i => i 0, invFun := fun q => ix3 q (0 : Fin 1) (0 : Fin 1), left_inv := eq_ix3_n11, right_inv := fun _ => rfl }
  rw [← Equiv.sum_comp e.symm f]
  rfl

end Cert.Lib.Cells
-- ==== Proof.KFinal.lean ====
import proofs.«160003_j14877766713743_2_alg».proof.Proof.Gen.KernelIdeal.Frame
import proofs.«160003_j14877766713743_2_alg».proof.Proof.Spec
import proofs.«160003_j14877766713743_2_alg».proof.Proof.KAccum
import Idealize.ShloMosaic.Lib.Pipeline.Value
import Idealize.ShloMosaic.Lib.ValueIdx
import Idealize.ShloMosaic.Lib.StableHlo.Run
import Idealize.ShloMosaic.PureOps.Ideal.Laws
import proofs.«160003_j14877766713743_2_alg».proof.Proof.LibCells

/-!
  From the steps to the program's result, over the extended reals.

  The kernel's output is two cells, one per half of the batch. Cell `q` is written back once, after the last step of
  half `q`, and then holds that half's total. The host adds the two cells from zero and divides by the number of kept
  pairs: the halves' totals add up to the total over every row and class, so the program's result is the loss.
-/

set_option maxRecDepth 16384

noncomputable section

open scoped BigOperators

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.Proximity Cert.KernelIdeal.Accum

variable (m : (ℓ : Loc nD τ sig) → Buf (Elt Ideal) ℓ) (ρ : Dev nD → PrngReg)

/-- The output's index map: step `t` belongs to half `t / 8`. -/
theorem idx_out : ∀ t : Fin cfg0.N, win0_3.index t (0 : Fin 3) = t.val / 8 ∧ win0_3.index t (1 : Fin 3) = 0 ∧ win0_3.index t (2 : Fin 3) = 0 :=
  (by decide +kernel : ∀ t : Fin grid0.N, win0_3.index t (0 : Fin 3) = t.val / 8 ∧ win0_3.index t (1 : Fin 3) = 0 ∧ win0_3.index t (2 : Fin 3) = 0)
/-- The output's block is one cell at every step. -/
theorem xsize_out : ∀ t : Fin cfg0.N, win0_3.xsize (grid0.coords t) (0 : Fin 3) = 1 ∧ win0_3.xsize (grid0.coords t) (1 : Fin 3) = 1 ∧ win0_3.xsize (grid0.coords t) (2 : Fin 3) = 1 :=
  (by decide +kernel : ∀ t : Fin grid0.N, win0_3.xsize (grid0.coords t) (0 : Fin 3) = 1 ∧ win0_3.xsize (grid0.coords t) (1 : Fin 3) = 1 ∧ win0_3.xsize (grid0.coords t) (2 : Fin 3) = 1)

/-- The two output cells after the kernel: cell `q` holds half `q`'s total. -/
abbrev cells (c : Dev nD) : Buf (Elt Ideal) ((c : Thread nD τ).loc main_v2) :=
  (fun i => halfTotal m c (i 0).val : S2x1x1.Idx → EReal)

/-- At a step that writes the output back — the last of a half — the cell written holds the half's total. -/
theorem out_at_flush (c : Dev nD) (t : Fin cfg0.N) (h7 : t.val % 8 = 7) (y : S1x1x1.Idx) :
    (outsAt0 m c t.val t.isLt).1 y = halfTotal m c (t.val / 8) := by
  have e : 8 * (t.val / 8) + 7 = t.val := by omega
  have same : ∀ (u : ℕ) (hu : u < cfg0.N), u = t.val → (outsAt0 m c u hu).1 y = (outsAt0 m c t.val t.isLt).1 y :=
    fun u hu e => by subst e; rfl
  rw [← same (8 * (t.val / 8) + 7) (by have := t.isLt; omega) e]
  exact out_at_last m c _ _ y

/-- What a write-back writes is the block of the cells it covers. -/
theorem flushed_eq (c : Dev nD) (t : Fin cfg0.N) (hf : (cfg0.win 3).flush t = true) :
    (dats m 0 c).flushed 3 t = ((cfg0.win 3).blk t).view.read (Elt Ideal) (cells m c) := by
  have h7 : t.val % 8 = 7 := (flush0_3 t).mp hf
  show (cfg0.win 3).cut (grid0.coords t) ((dats m 0 c).after 3 t) = _
  rw [after0_3]
  funext y
  rw [View.read_apply]
  refine (out_at_flush m c t h7 _).trans ?_
  show halfTotal m c (t.val / 8) = halfTotal m c ((((cfg0.win 3).blk t).view.emb y) 0).val
  refine congrArg (halfTotal m c) ?_
  show t.val / 8 = win0_3.index t 0 * 1 + 1 * (y 0).val
  have hy : (y 0).val < 1 := lt_of_lt_of_eq (y 0).isLt (xsize_out t).1
  rw [(idx_out t).1]
  omega

/-- So after the kernel the output array holds the two halves' totals: cell `q` is covered by the write-back after
    step `8q + 7`. -/
theorem final (c : Dev nD) : (dats m 0 c).arrAt 3 cfg0.N = cells m c :=
  (dats m 0 c).arrAt_eq_of_cover 3 (cells m c) (flushed_eq m c) fun i => by
    have hN : cfg0.N = 16 := N_0
    have h0 : (i 0 : Nat) < 2 := (i 0).isLt
    have h1 : (i 1 : Nat) < 1 := (i 1).isLt
    have h2 : (i 2 : Nat) < 1 := (i 2).isLt
    have ht : 8 * (i 0 : Nat) + 7 < cfg0.N := by rw [hN]; omega
    refine ⟨⟨8 * (i 0 : Nat) + 7, ht⟩, (flush0_3 _).mpr (by show (8 * (i 0 : Nat) + 7) % 8 = 7; omega), ?_⟩
    show i ∈ ((View.whole main_v2).slice (win0_3.rect ⟨8 * (i 0 : Nat) + 7, ht⟩)).set
    rw [View.set_slice_whole, Rect.mem_set_unit]
    intro a
    have hi := idx_out ⟨8 * (i 0 : Nat) + 7, ht⟩
    have hx := xsize_out ⟨8 * (i 0 : Nat) + 7, ht⟩
    match a with
    | ⟨0, _⟩ =>
      show win0_3.index _ 0 * win0_3.size 0 ≤ (i 0 : Nat) ∧ (i 0 : Nat) < win0_3.index _ 0 * win0_3.size 0 + win0_3.xsize _ 0
      rw [hi.1, hx.1]; show (8 * (i 0 : Nat) + 7) / 8 * 1 ≤ (i 0 : Nat) ∧ (i 0 : Nat) < (8 * (i 0 : Nat) + 7) / 8 * 1 + 1; omega
    | ⟨1, _⟩ =>
      show win0_3.index _ 1 * win0_3.size 1 ≤ (i 1 : Nat) ∧ (i 1 : Nat) < win0_3.index _ 1 * win0_3.size 1 + win0_3.xsize _ 1
      rw [hi.2.1, hx.2.1]; omega
    | ⟨2, _⟩ =>
      show win0_3.index _ 2 * win0_3.size 2 ≤ (i 2 : Nat) ∧ (i 2 : Nat) < win0_3.index _ 2 * win0_3.size 2 + win0_3.xsize _ 2
      rw [hi.2.2, hx.2.2]; omega

/-! ## The host's two operations after the kernel -/

/-- The host's sum of the two cells from the zero word is `0 + ` their sum. -/
theorem cells_sum (y : S2x1x1.Idx → EReal) (i : S_.Idx) :
    Host.reduceAdd (F := Ideal) y (constant (F := Ideal) S_ .f32 0x00000000#32) reducesTo_S2x1x1_S_d0_1_2 h_S_ i
      = Ideal.ofBits .f32 0x00000000#32 + ∑ j : S2x1x1.Idx, y j := by
  simp only [Host.reduceAdd, Ideal.hostReduceAdd_def]
  exact Ideal.hostReduceAdd_total reducesTo_S2x1x1_S_d0_1_2 (fun b => b.elim0) y _ i

/-- The program's result: the two halves' totals added from zero and divided by the number of kept pairs — the loss. -/
theorem tail_result (c : Dev nD) :
    Pipeline.afterTail₀ cfgs (dats m) 0 (V0 m) [hostOps1] c main_v4
      = fun _ => loss (feats m c) (centres m c) (labs m c) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.tc.devRef main_v2)
      = cells m c := (Pipeline.withArrays_arr spec0 launch0.win.arr_inj c _ _ 3).trans (final m c)
  rw [hw]
  funext i
  show FloatOps.hostDivf (Host.reduceAdd (F := Ideal) (cells m c) (constant (F := Ideal) S_ .f32 0x00000000#32) reducesTo_S2x1x1_S_d0_1_2 h_S_ i)
    (constant (F := Ideal) S_ .f32 0x49A80000#32 i) = _
  rw [cells_sum, Ideal.ofBits_zero_f32, zero_add, Cert.Lib.Cells.sum_idx_n11]
  unfold loss
  rw [← sum_halves_tiles]
  rfl

/-! ## The run -/

/-- Every weakly fair execution of the program ends with its result at the loss of the three arguments it was launched
    with, and those arguments unchanged. -/
theorem run : θ_run defs (onTc (τ := τ) (main (F := Ideal))) ⟨m, fun _ => 0, ρ⟩ (fun r => ∀ c : Dev nD,
      r.2.mem ((c.tc : Thread nD τ).loc main_v4) = (fun _ => loss (feats m c) (centres m c) (labs m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (tail_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Final

end
-- ==== Proof.lean ====
/-
  A pairwise-distance loss computed by a tiled kernel equals the same loss computed by plain array operations.

  For 32768 feature rows `x_i` of dimension 1024, 43 class centres `c_j` and a label per row, both programs compute

      loss = ( Σ_i Σ_{j ≠ label_i} clamp (‖x_i‖² + ‖c_j‖² − 2·⟨x_i, c_j⟩) ) / (32768 · 42),

  the clamp into `[1e-12, 1e12]` (as f32 words, the same words in both programs), a dropped pair contributing zero.

  The reference forms the whole 32768 × 43 array of kept clamped distances and sums it. The kernel pads the centres
  to 128 rows, cuts the batch into two halves of eight tiles of 2048 rows, and at each step forms the tile's
  2048 × 128 array of kept clamped distances — a lane is dropped when it is the row's own class or lies past the 43
  classes —, sums it by lanes and by rows, and adds the tile's total to an accumulator that restarts at the first step
  of a half; the last step of a half writes the accumulator to that half's output cell, and the host adds the two cells
  and divides. Over the extended reals a change of float format is the identity and a matrix product into zero is the
  sum of products, so lane `j < 43` of a row is exactly the reference's entry for class `j`, the other lanes are zero,
  and the claim is that a sum over all rows may be taken half by half, tile by tile and row by row: associativity and
  commutativity of addition, which hold at the infinities too, so the precondition on the inputs is never opened.

  The modules: `Spec` (the loss as one function, and the regrouping of the sum), `RefValue` (the reference is the
  loss), `KPieces` (what each of the body's three control cases stores), `KPayload` (the body's arithmetic at an entry),
  `KBlocks` (the blocks as entries of the arrays), `KAccum` (the accumulation over the steps), `KFinal` (the output
  array, the host's two last operations, the run).
-/
import proofs.«160003_j14877766713743_2_alg».proof.Defs
import proofs.«160003_j14877766713743_2_alg».proof.Proof.Gen.Kernel
import proofs.«160003_j14877766713743_2_alg».proof.Proof.Gen.Kernel.Skeleton
import proofs.«160003_j14877766713743_2_alg».proof.Proof.Gen.Kernel.Launch
import proofs.«160003_j14877766713743_2_alg».proof.Proof.Gen.Kernel.Points
import proofs.«160003_j14877766713743_2_alg».proof.Proof.Gen.Kernel.Frame
import proofs.«160003_j14877766713743_2_alg».proof.Proof.Gen.KernelIdeal
import proofs.«160003_j14877766713743_2_alg».proof.Proof.Gen.KernelIdeal.Skeleton
import proofs.«160003_j14877766713743_2_alg».proof.Proof.Gen.KernelIdeal.Launch
import proofs.«160003_j14877766713743_2_alg».proof.Proof.Gen.KernelIdeal.Points
import proofs.«160003_j14877766713743_2_alg».proof.Proof.Gen.KernelIdeal.Frame
import proofs.«160003_j14877766713743_2_alg».proof.Proof.Gen.ReferenceIdeal
import proofs.«160003_j14877766713743_2_alg».proof.Proof.Gen.ReferenceIdeal.Run
import proofs.«160003_j14877766713743_2_alg».proof.Proof.Gen.ReferenceIdeal.Read
import proofs.«160003_j14877766713743_2_alg».proof.Proof.Gen.Pre_finite_inputs
import proofs.«160003_j14877766713743_2_alg».proof.Proof.RefValue
import proofs.«160003_j14877766713743_2_alg».proof.Proof.KFinal
import Idealize.ShloMosaic.Adequacy
import Idealize.ShloMosaic.Init

noncomputable section

namespace Cert.Proof

open Idealize.ShloMosaic Idealize.SL.Sem Cert.Proximity

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the three arguments both programs end at the loss of those arguments: the kernel's
    run ends there by the accumulation over its sixteen steps, the reference's by reading its operations one at a
    time. -/
theorem algebraic : Cert.algebraic_KernelIdeal_ReferenceIdeal := by
  intro m ρ m' ρ' _ hagree
  refine ⟨fun c => (fun _ => loss (Cert.KernelIdeal.Accum.feats m c) (Cert.KernelIdeal.Accum.centres m c)
    (Cert.KernelIdeal.Accum.labs m c)), Cert.KernelIdeal.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v23_eq, Cert.ReferenceIdeal.RefValue.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
